-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x800000 : Shape := ⟨2, ![2, 800000]⟩
abbrev S50000 : Shape := ⟨1, ![50000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64x10 : Shape := ⟨2, ![64, 10]⟩
abbrev S10 : Shape := ⟨1, ![10]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x10 .f32) (main_arg12 : FVec F S10 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x10 .f32 := Host.absf main_arg11
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_arg11 : FVec F S64x10 .f32) (main_arg12 : FVec F S10 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x3 .f32) (main_arg1 : IVec S2x800000 32) (main_arg2 : IVec S50000 32) (main_arg3 : FVec F S3x64 .f32) (main_arg4 : FVec F S64 .f32) (main_arg5 : FVec F S64x128 .f32) (main_arg6 : FVec F S128 .f32) (main_arg7 : FVec F S128x128 .f32) (main_arg8 : FVec F S128 .f32) (main_arg9 : FVec F S128x64 .f32) (main_arg10 : FVec F S64 .f32) (main_arg11 : FVec F S64x10 .f32) (main_arg12 : FVec F S10 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S3x64 .f32 := Host.absf main_arg3
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_v13 main_v16
-- ==== Kernel.lean ====
abbrev S50000x3 : Shape := ⟨2, ![50000, 3]⟩
abbrev S2x800000 : Shape := ⟨2, ![2, 800000]⟩
abbrev S50000 : Shape := ⟨1, ![50000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x3 : Shape := ⟨2, ![5000, 3]⟩
abbrev S5000x64 : Shape := ⟨2, ![5000, 64]⟩
abbrev S850000x64 : Shape := ⟨2, ![850000, 64]⟩
abbrev S1x64 : Shape := ⟨2, ![1, 64]⟩
abbrev S50000x128 : Shape := ⟨2, ![50000, 128]⟩
abbrev S5000x128 : Shape := ⟨2, ![5000, 128]⟩
abbrev S850000x128 : Shape := ⟨2, ![850000, 128]⟩
abbrev S1x128 : Shape := ⟨2, ![1, 128]⟩
abbrev S50000x1 : Shape := ⟨2, ![50000, 1]⟩
abbrev S64x1 : Shape := ⟨2, ![64, 1]⟩
abbrev S1x10 : Shape := ⟨2, ![1, 10]⟩
abbrev S64x64 : Shape := ⟨2, ![64, 64]⟩

abbrev nBuf : Space → Nat
  | .hbm => 120
  | .vmem => 28
  | .smem => 0
  | _ => 0

abbrev bufTy : (tb : Table) → Fin (tcTables nBuf tb) → BufTy
  | .hbm, ⟨0, _⟩ => ⟨S50000x3, .f32⟩
  | .hbm, ⟨1, _⟩ => ⟨S2x800000, .i32⟩
  | .hbm, ⟨2, _⟩ => ⟨S50000, .i32⟩
  | .hbm, ⟨3, _⟩ => ⟨S3x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x10, .f32⟩
  | .hbm, ⟨12, _⟩ => ⟨S10, .f32⟩
  | .hbm, ⟨13, _⟩ => ⟨S50000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x64, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x64, .f32⟩
  | .hbm, ⟨56, _⟩ => ⟨S850000x1, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x128, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x128, .f32⟩
  | .hbm, ⟨74, _⟩ => ⟨S850000x1, .f32⟩
  | .hbm, ⟨75, _⟩ => ⟨S850000x128, .f32⟩
  | .hbm, ⟨76, _⟩ => ⟨S850000x128, .f32⟩
  | .hbm, ⟨77, _⟩ => ⟨S_, .f32⟩
  | .hbm, ⟨78, _⟩ => ⟨S50000x128, .f32⟩
  | .hbm, ⟨79, _⟩ => ⟨S850000x1, .i32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000x128, .f32⟩
  | .hbm, ⟨92, _⟩ => ⟨S850000x1, .f32⟩
  | .hbm, ⟨93, _⟩ => ⟨S850000x128, .f32⟩
  | .hbm, ⟨94, _⟩ => ⟨S850000x128, .f32⟩
  | .hbm, ⟨95, _⟩ => ⟨S_, .f32⟩
  | .hbm, ⟨96, _⟩ => ⟨S50000x128, .f32⟩
  | .hbm, ⟨97, _⟩ => ⟨S850000x1, .i32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S_, .f32⟩
  | .hbm, ⟨102, _⟩ => ⟨S64x128, .f32⟩
  | .hbm, ⟨103, _⟩ => ⟨S50000x1, .i32⟩
  | .hbm, ⟨104, _⟩ => ⟨S64x128, .f32⟩
  | .hbm, ⟨105, _⟩ => ⟨S_, .f32⟩
  | .hbm, ⟨106, _⟩ => ⟨S50000, .f32⟩
  | .hbm, ⟨107, _⟩ => ⟨S_, .f32⟩
  | .hbm, ⟨108, _⟩ => ⟨S64, .f32⟩
  | .hbm, ⟨109, _⟩ => ⟨S50000x1, .i32⟩
  | .hbm, ⟨110, _⟩ => ⟨S64, .f32⟩
  | .hbm, ⟨111, _⟩ => ⟨S_, .f32⟩
  | .hbm, ⟨112, _⟩ => ⟨S64, .f32⟩
  | .hbm, ⟨113, _⟩ => ⟨S64, .f32⟩
  | .hbm, ⟨114, _⟩ => ⟨S64x1, .f32⟩
  | .hbm, ⟨115, _⟩ => ⟨S64x128, .f32⟩
  | .hbm, ⟨116, _⟩ => ⟨S64x128, .f32⟩
  | .hbm, ⟨117, _⟩ => ⟨S1x64, .f32⟩
  | .hbm, ⟨118, _⟩ => ⟨S1x10, .f32⟩
  | .hbm, ⟨119, _⟩ => ⟨S64x10, .f32⟩
  | .local _ .vmem, ⟨0, _⟩ => ⟨S5000x3, .f32⟩
  | .local _ .vmem, ⟨1, _⟩ => ⟨S5000x3, .f32⟩
  | .local _ .vmem, ⟨2, _⟩ => ⟨S3x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S64x128, .f32⟩
  | .local _ .vmem, ⟨23, _⟩ => ⟨S128x64, .f32⟩
  | .local _ .vmem, ⟨24, _⟩ => ⟨S1x64, .f32⟩
  | .local _ .vmem, ⟨25, _⟩ => ⟨S64x10, .f32⟩
  | .local _ .vmem, ⟨26, _⟩ => ⟨S1x10, .f32⟩
  | .local _ .vmem, ⟨27, _⟩ => ⟨S64x10, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_10 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_16 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25
abbrev cc4_sem4_0 : DmaSem sig := 26
abbrev cc4_sem5_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S10_S1x10 : S10.ShapeCasts S1x10
  shapeCasts_S64x128_S64x128 : S64x128.ShapeCasts S64x128
  inb_S128x64_S128x64_0_0 : ∀ a, (![0, 0] : Fin 2 → Nat) a + S128x64.size a ≤ S128x64.size a
  h_S128x64 : 0 < S128x64.numel
  broadcasts_S1x64_S64x64 : S1x64.Broadcasts S64x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x3_S3x64_S5000x64_1_0_0_1_n_n_wf : DotDims.WF S5000x3 S3x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S50000x3.size a
  hwx0_0 : ∀ i : grid0.Coords, EltTy.bits .f32 = 32 ∨ (Rect.block (s := S50000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x10.size a ≤ S64x10.size a
  hwx4_3 : ∀ i : grid4.Coords, EltTy.bits .f32 = 32 ∨ (Rect.block (s := S64x10) S64x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x10.size a ≤ S64x10.size a
  hwx4_5 : ∀ i : grid4.Coords, EltTy.bits .f32 = 32 ∨ (Rect.block (s := S64x10) S64x10.size (cc4_transform_5 i) (hinb4_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v84) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S64x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v87) S64x10.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x3 : Shape := ⟨2, ![50000, 3]⟩
abbrev S2x800000 : Shape := ⟨2, ![2, 800000]⟩
abbrev S50000 : Shape := ⟨1, ![50000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x128 : Shape := ⟨2, ![50000, 128]⟩
abbrev S850000x128 : Shape := ⟨2, ![850000, 128]⟩
abbrev S1x128 : Shape := ⟨2, ![1, 128]⟩
abbrev S50000x1 : Shape := ⟨2, ![50000, 1]⟩
abbrev S64x1 : Shape := ⟨2, ![64, 1]⟩
abbrev S64x64 : Shape := ⟨2, ![64, 64]⟩
abbrev S1x10 : Shape := ⟨2, ![1, 10]⟩

abbrev nBuf : Space → Nat
  | .hbm => 142
  | .vmem => 0
  | .smem => 0
  | _ => 0

abbrev hbmTy0_0 (i : Nat) : BufTy := match i % 128 with
  | 0 => ⟨S50000x3, .f32⟩
  | 1 => ⟨S2x800000, .i32⟩
  | 2 => ⟨S50000, .i32⟩
  | 3 => ⟨S3x64, .f32⟩
  | 4 => ⟨S64, .f32⟩
  | 5 => ⟨S64x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x10, .f32⟩
  | 12 => ⟨S10, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x64, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x64, .f32⟩
  | 56 => ⟨S850000x1, .f32⟩
  | 57 => ⟨S850000x64, .f32⟩
  | 58 => ⟨S850000x64, .f32⟩
  | 59 => ⟨S_, .f32⟩
  | 60 => ⟨S50000x64, .f32⟩
  | 61 => ⟨S850000x1, .i32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S50000x64, .f32⟩
  | 68 => ⟨S50000x64, .f32⟩
  | 69 => ⟨S50000x128, .f32⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000x128, .f32⟩
  | 79 => ⟨S850000x1, .f32⟩
  | 80 => ⟨S850000x128, .f32⟩
  | 81 => ⟨S850000x128, .f32⟩
  | 82 => ⟨S_, .f32⟩
  | 83 => ⟨S50000x128, .f32⟩
  | 84 => ⟨S850000x1, .i32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x128, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000x128, .f32⟩
  | 102 => ⟨S850000x1, .f32⟩
  | 103 => ⟨S850000x128, .f32⟩
  | 104 => ⟨S850000x128, .f32⟩
  | 105 => ⟨S_, .f32⟩
  | 106 => ⟨S50000x128, .f32⟩
  | 107 => ⟨S850000x1, .i32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S_, .f32⟩
  | 116 => ⟨S64x128, .f32⟩
  | 117 => ⟨S50000x1, .i32⟩
  | 118 => ⟨S64x128, .f32⟩
  | 119 => ⟨S_, .f32⟩
  | 120 => ⟨S50000, .f32⟩
  | 121 => ⟨S_, .f32⟩
  | 122 => ⟨S64, .f32⟩
  | 123 => ⟨S50000x1, .i32⟩
  | 124 => ⟨S64, .f32⟩
  | 125 => ⟨S_, .f32⟩
  | 126 => ⟨S64, .f32⟩
  | 127 => ⟨S64, .f32⟩
  | _ => ⟨S50000x3, .f32⟩

abbrev hbmTy0_1 (i : Nat) : BufTy := match i % 128 with
  | 0 => ⟨S64x1, .f32⟩
  | 1 => ⟨S64x128, .f32⟩
  | 2 => ⟨S64x128, .f32⟩
  | 3 => ⟨S64x64, .f32⟩
  | 4 => ⟨S1x64, .f32⟩
  | 5 => ⟨S64x64, .f32⟩
  | 6 => ⟨S64x64, .f32⟩
  | 7 => ⟨S_, .f32⟩
  | 8 => ⟨S64x64, .f32⟩
  | 9 => ⟨S64x64, .f32⟩
  | 10 => ⟨S64x10, .f32⟩
  | 11 => ⟨S1x10, .f32⟩
  | 12 => ⟨S64x10, .f32⟩
  | 13 => ⟨S64x10, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_cst : Ref sig .tc := ⟨.hbm, 66, rfl⟩
abbrev main_call0_v0 : Ref sig .tc := ⟨.hbm, 67, rfl⟩
abbrev main_v44 : Ref sig .tc := ⟨.hbm, 68, rfl⟩
abbrev main_v45 : Ref sig .tc := ⟨.hbm, 69, rfl⟩
abbrev main_c_7 : Ref sig .tc := ⟨.hbm, 70, rfl⟩
abbrev main_v46 : Ref sig .tc := ⟨.hbm, 71, rfl⟩
abbrev main_v47 : Ref sig .tc := ⟨.hbm, 72, rfl⟩
abbrev main_c_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_call1_cst : Ref sig .tc := ⟨.hbm, 89, rfl⟩
abbrev main_call1_v0 : Ref sig .tc := ⟨.hbm, 90, rfl⟩
abbrev main_v62 : Ref sig .tc := ⟨.hbm, 91, rfl⟩
abbrev main_v63 : Ref sig .tc := ⟨.hbm, 92, rfl⟩
abbrev main_c_10 : Ref sig .tc := ⟨.hbm, 93, rfl⟩
abbrev main_v64 : Ref sig .tc := ⟨.hbm, 94, rfl⟩
abbrev main_v65 : Ref sig .tc := ⟨.hbm, 95, rfl⟩
abbrev main_c_11 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_12 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call2_cst : Ref sig .tc := ⟨.hbm, 112, rfl⟩
abbrev main_call2_v0 : Ref sig .tc := ⟨.hbm, 113, rfl⟩
abbrev main_v80 : Ref sig .tc := ⟨.hbm, 114, rfl⟩
abbrev main_cst_13 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_14 : Ref sig .tc := ⟨.hbm, 119, rfl⟩
abbrev main_v84 : Ref sig .tc := ⟨.hbm, 120, rfl⟩
abbrev main_cst_15 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_16 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_call3_cst : Ref sig .tc := ⟨.hbm, 135, rfl⟩
abbrev main_call3_v0 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x3_S3x64_S50000x64_1_0_0_1_n_n_wf : DotDims.WF S50000x3 S3x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []
  dot_S64x64_S64x10_S64x10_1_0_0_1_n_n_wf : DotDims.WF S64x64 S64x10 S64x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x3_S3x64_S50000x64_1_0_0_1_n_n : DotDims S50000x3 S3x64 S50000x64 where
  lhsContracting := [1]
  rhsContracting := [0]
  lhsNonContracting := [0]
  rhsNonContracting := [1]
  lhsBatch := []
  rhsBatch := []
  wf := dot_S50000x3_S3x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.KernelRun.lean ====
/-
  The idealized kernel's run with its result kept. The program is five kernel regions among stretches of host operations;
  run segment by segment, every buffer that outlives a region ends at the last boundary's contents `Gen.W10`: the fold of the
  host stretches and of each region's write-backs from the launch memory. The frame's post forgets everything but the
  arguments; here the same run is posted with the result buffer `main_v87` at `Gen.W10` as well, which is what the value
  proof reads.
-/
import proofs.«108873_j65489661330093_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v87) = W10 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v87 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.RunValue

end
-- ==== Proof.Spec.lean ====
/-
  The network as one function of the thirteen argument arrays, stage by stage, over the extended reals.

  A graph of 50000 nodes and 800000 edges gets one self-loop per node (`src`, `dst`: the edge list's two rows, each followed
  by 0 … 49999). A node's degree is the number of edges arriving at it, `dinv` its inverse square root, and an edge's weight
  `norm` is dinv at its source times dinv at its target (a negative index word wraps by adding 50000 before a row is
  fetched: `wrap`). One convolution: a dense stage applied to every node's row, then `agg`: each edge fetches its source's
  row, scales it by the edge's weight and adds it into its target's row. Three convolutions (3 → 64 → 128 → 128 columns), each
  followed by a bias row and a clip at zero; the clip and bias of one layer are grouped with the next layer's matrix product
  (`stage1`, `stage2`), which is how the kernel cuts the computation and changes no entry. Then the mean of the node rows
  of each of 64 graphs (`pool`: the rows summed by graph number, divided by the number of nodes of the graph, at least 1) and
  a two-layer head (`stage4`). `G` composes them; the reference program's result term is `G` of its arguments by unfolding.
-/
import proofs.«108873_j65489661330093_1_alg».proof.Proof.Gen.ReferenceIdeal.Run
import Idealize.ShloMosaic.PureOps.Ideal

noncomputable section

namespace Cert.Spec

open Cert.ReferenceIdeal Cert.ReferenceIdeal.Gen Idealize.ShloMosaic Idealize.ShloMosaic.TcCoe Idealize.SL.Sem Idealize.ShloMosaic.StableHlo

/-- A float array of shape `s` over the extended reals. -/
abbrev RA (s : Shape) : Type := FVec Ideal s .f32
/-- An array of 32-bit integer words of shape `s`. -/
abbrev IA (s : Shape) : Type := Vec Ideal s .i32

/-- The edges' source nodes followed by every node (the self-loops). -/
def src (e : IA S2x800000) : IA S850000 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edges' target nodes followed by every node. -/
def dst (e : IA S2x800000) : IA S850000 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- An index list as the one-column array a row fetch takes, a negative word moved up by 50000 first. -/
def wrap (s : IA S850000) : IA S850000x1 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- An index list as the one-column array an accumulation takes. -/
def col (s : IA S850000) : IA S850000x1 := broadcastInDim S850000x1 ![0] bcast_S850000_S850000x1_0 s

/-- Each node's degree (edges arriving, the self-loop included) to the power -1/2. -/
def dinv (e : IA S2x800000) : RA S50000 :=
  Host.rsqrt (F := Ideal) (Host.scatterAdd (F := Ideal) scatter_S50000_S850000x1_S850000_n_0_0_1
    (broadcastInDim S50000 ![] bcast_S_S50000 (constant (F := Ideal) S_ .f32 0x00000000#32)) (col (dst e))
    (broadcastInDim S850000 ![] bcast_S_S850000 (constant (F := Ideal) S_ .f32 0x3F800000#32)))

/-- Each edge's weight: dinv at its source times dinv at its target. -/
def norm (e : IA S2x800000) : RA S850000 :=
  mulf (F := Ideal) (φ := .f32) (Host.gather gather_S50000_S850000x1_S850000_n_0_n_n_0_1_1 (dinv e) (wrap (src e)))
    (Host.gather gather_S50000_S850000x1_S850000_n_0_n_n_0_1_1 (dinv e) (wrap (dst e)))

/-- The weighted sum over arriving edges of the source rows, 64 columns. -/
def agg64 (h : RA S50000x64) (e : IA S2x800000) : RA S50000x64 :=
  Host.scatterAdd (F := Ideal) scatter_S50000x64_S850000x1_S850000x64_1_0_0_1
    (broadcastInDim S50000x64 ![] bcast_S_S50000x64 (constant (F := Ideal) S_ .f32 0x00000000#32)) (col (dst e))
    (mulf (F := Ideal) (φ := .f32) (Host.gather gather_S50000x64_S850000x1_S850000x64_1_0_n_n_0_1_164 h (wrap (src e)))
      (broadcastInDim S850000x64 ![0, 1] bcast_S850000x1_S850000x64_0_1 (broadcastInDim S850000x1 ![0] bcast_S850000_S850000x1_0 (norm e))))

/-- The weighted sum over arriving edges of the source rows, 128 columns. -/
def agg128 (h : RA S50000x128) (e : IA S2x800000) : RA S50000x128 :=
  Host.scatterAdd (F := Ideal) scatter_S50000x128_S850000x1_S850000x128_1_0_0_1
    (broadcastInDim S50000x128 ![] bcast_S_S50000x128 (constant (F := Ideal) S_ .f32 0x00000000#32)) (col (dst e))
    (mulf (F := Ideal) (φ := .f32) (Host.gather gather_S50000x128_S850000x1_S850000x128_1_0_n_n_0_1_1128 h (wrap (src e)))
      (broadcastInDim S850000x128 ![0, 1] bcast_S850000x1_S850000x128_0_1 (broadcastInDim S850000x1 ![0] bcast_S850000_S850000x1_0 (norm e))))

/-- A bias vector as one row. -/
def row64 (b : RA S64) : RA S1x64 := broadcastInDim S1x64 ![1] bcast_S64_S1x64_1 b
def row128 (b : RA S128) : RA S1x128 := broadcastInDim S1x128 ![1] bcast_S128_S1x128_1 b
def row10 (b : RA S10) : RA S1x10 := broadcastInDim S1x10 ![1] bcast_S10_S1x10_1 b

/-- The first layer's matrix product. -/
def stage0 (x : RA S50000x3) (w : RA S3x64) : RA S50000x64 :=
  Host.dotGeneral (F := Ideal) (φ₁ := .f32) (φ₂ := .f32) dot_S50000x3_S3x64_S50000x64_1_0_0_1_n_n none x w

/-- Bias and clip of the first layer, then the second layer's matrix product. -/
def stage1 (a : RA S50000x64) (b : RA S1x64) (w : RA S64x128) : RA S50000x128 :=
  Host.dotGeneral (F := Ideal) (φ₁ := .f32) (φ₂ := .f32) dot_S50000x64_S64x128_S50000x128_1_0_0_1_n_n none
    (maximumf (addf a (broadcastInDim S50000x64 ![0, 1] bcast_S1x64_S50000x64_0_1 b))
      (broadcastInDim S50000x64 ![] bcast_S_S50000x64 (constant (F := Ideal) S_ .f32 0x00000000#32))) w

/-- Bias and clip of the second layer, then the third layer's matrix product. -/
def stage2 (a : RA S50000x128) (b : RA S1x128) (w : RA S128x128) : RA S50000x128 :=
  Host.dotGeneral (F := Ideal) (φ₁ := .f32) (φ₂ := .f32) dot_S50000x128_S128x128_S50000x128_1_0_0_1_n_n none
    (maximumf (addf a (broadcastInDim S50000x128 ![0, 1] bcast_S1x128_S50000x128_0_1 b))
      (broadcastInDim S50000x128 ![] bcast_S_S50000x128 (constant (F := Ideal) S_ .f32 0x00000000#32))) w

/-- Bias and clip of the third layer. -/
def stage3 (a : RA S50000x128) (b : RA S1x128) : RA S50000x128 :=
  maximumf (addf a (broadcastInDim S50000x128 ![0, 1] bcast_S1x128_S50000x128_0_1 b))
    (broadcastInDim S50000x128 ![] bcast_S_S50000x128 (constant (F := Ideal) S_ .f32 0x00000000#32))

/-- The mean node row of each graph: rows summed by graph number over the number of nodes of the graph, at least 1. -/
def pool (h : RA S50000x128) (g : IA S50000) : RA S64x128 :=
  Host.divf (F := Ideal)
    (Host.scatterAdd (F := Ideal) scatter_S64x128_S50000x1_S50000x128_1_0_0_1
      (broadcastInDim S64x128 ![] bcast_S_S64x128 (constant (F := Ideal) S_ .f32 0x00000000#32))
      (broadcastInDim S50000x1 ![0] bcast_S50000_S50000x1_0 g) h)
    (broadcastInDim S64x128 ![0, 1] bcast_S64x1_S64x128_0_1 (broadcastInDim S64x1 ![0] bcast_S64_S64x1_0
      (maximumf (Host.scatterAdd (F := Ideal) scatter_S64_S50000x1_S50000_n_0_0_1
          (broadcastInDim S64 ![] bcast_S_S64 (constant (F := Ideal) S_ .f32 0x00000000#32))
          (broadcastInDim S50000x1 ![0] bcast_S50000_S50000x1_0 g)
          (broadcastInDim S50000 ![] bcast_S_S50000 (constant (F := Ideal) S_ .f32 0x3F800000#32)))
        (broadcastInDim S64 ![] bcast_S_S64 (constant (F := Ideal) S_ .f32 0x3F800000#32)))))

/-- The head: a product, a bias row, a clip at zero, a product, a bias row. -/
def stage4 (p : RA S64x128) (w1 : RA S128x64) (b1 : RA S1x64) (w2 : RA S64x10) (b2 : RA S1x10) : RA S64x10 :=
  addf (Host.dotGeneral (F := Ideal) (φ₁ := .f32) (φ₂ := .f32) dot_S64x64_S64x10_S64x10_1_0_0_1_n_n none
      (maximumf (addf (Host.dotGeneral (F := Ideal) (φ₁ := .f32) (φ₂ := .f32) dot_S64x128_S128x64_S64x64_1_0_0_1_n_n none p w1)
          (broadcastInDim S64x64 ![0, 1] bcast_S1x64_S64x64_0_1 b1))
        (broadcastInDim S64x64 ![] bcast_S_S64x64 (constant (F := Ideal) S_ .f32 0x00000000#32))) w2)
    (broadcastInDim S64x10 ![0, 1] bcast_S1x10_S64x10_0_1 b2)

/-- The whole network. -/
def G (x : RA S50000x3) (e : IA S2x800000) (g : IA S50000) (W1 : RA S3x64) (b1 : RA S64) (W2 : RA S64x128) (b2 : RA S128)
    (W3 : RA S128x128) (b3 : RA S128) (Wf1 : RA S128x64) (bf1 : RA S64) (Wf2 : RA S64x10) (bf2 : RA S10) : RA S64x10 :=
  stage4 (pool (stage3 (agg128 (stage2 (agg128 (stage1 (agg64 (stage0 x W1) e) (row64 b1) W2) e) (row128 b2) W3) e) (row128 b3)) g)
    Wf1 (row64 bf1) Wf2 (row10 bf2)

set_option maxRecDepth 16384 in
set_option maxHeartbeats 4000000 in
/-- The reference program's result term is the network of its arguments. -/
theorem ref_eq (m : (ℓ : Loc nD τ sig) → Buf (Elt Ideal) ℓ) (c : Dev nD) :
    Cert.ReferenceIdeal.Value.res_main_v101 (F := Ideal) m c
      = G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.ReferenceIdeal.Value.res_main_v101
  rfl

end Cert.Spec

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibColumn.lean ====
/-
  Layout facts about columns and rows, independent of any program.

  A column is an array of shape [a, 1]. Broadcasting it to [a, b] repeats each row's single entry across the b
  positions of that row, so the entry at (p, c) is the column's entry at row p. Casting a vector of shape [a] to the
  column shape [a, 1] keeps the row-major order, so the entry at (i, 0) is the vector's entry at i.

  The host spells the same repetitions with an explicit map from the operand's axes to the result's axes: a vector
  [b] placed on axis 1 of [1, b] is read at its own position; a vector [a] placed on axis 0 of [a, 1] likewise; a row
  [1, b] or a column [a, 1] repeated to [a, b] is read at the one row, or the one column, it has; a scalar repeated to
  any shape is read at its one entry.
-/
import Idealize.ShloMosaic.Lib.ValueIdx
import Idealize.ShloMosaic.Lib.Pipeline.Value

noncomputable section

namespace Cert.Lib

open Idealize.ShloMosaic Idealize.ShloMosaic.ValueIdx

variable {α : Type}

/-- A column [a, 1] broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column shape [a, 1] reads, at (i, u), the vector's entry at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [b] placed on axis 1 of [1, b] reads, at (u, q), the vector's entry at q. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A vector [a] placed on axis 0 of [a, 1] reads, at (p, u), the vector's entry at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A row [1, b] repeated to [a, b], axes kept in place, reads at (p, q) the row's entry at q. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A column [a, 1] repeated to [a, b], axes kept in place, reads at (p, q) the column's entry at p. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A scalar repeated to any shape reads, everywhere, its one entry. -/
theorem broadcastInDim_scalar_apply {s : Shape} (x : (⟨0, ![]⟩ : Shape).Idx → α)
    (h : (⟨0, ![]⟩ : Shape).BroadcastsInDim s ![]) (i : s.Idx) :
    broadcastInDim s ![] h x i = x ix0 :=
  broadcastInDim_apply ![] h x i ix0 fun ax => ax.elim0

end Cert.Lib

end
-- ==== Proof.LibBiasClip.lean ====
/-
  Dense stages with a bias row and a clip at zero, over the extended reals, general in the sizes.

  `biasClip a b p k` is max (a (p, k) + b (0, k)) 0: a matrix's entry plus the entry of a one-row bias in the same column,
  clipped below at the zero word. Read at an entry, the kernel's tile spelling of it (the operands shape-cast to themselves,
  the bias row repeated over the tile's rows by vector.broadcast, a maximum with a splat zero scalar) and the host's
  whole-array spelling (the bias row repeated by broadcast_in_dim dims [0, 1], a maximum with a scalar zero repeated by
  broadcast_in_dim dims []) are both this function. A matrix product whose left operand is such a clipped matrix (rounded to
  bf16, which changes nothing over the extended reals), as a tpu.matmul into a zero accumulator and as the host's dot_general,
  read at (p, q) is the sum over k of biasClip a b p k · w (k, q). Also: a product plus a bias row, and a vector [n] reshaped
  to one row [1, n] is the same row as the vector placed on axis 1 by broadcast_in_dim.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import proofs.«108873_j65489661330093_1_alg».proof.Proof.LibPlainDot
import proofs.«108873_j65489661330093_1_alg».proof.Proof.LibColumn

noncomputable section

namespace Cert.Lib

open Idealize.ShloMosaic Idealize.ShloMosaic.ValueIdx

variable {M K N : ℕ}

/-- Entry (p, k) of a matrix plus a bias row, clipped below at the zero word. -/
def biasClip (a : FVec Ideal ⟨2, ![M, K]⟩ .f32) (b : FVec Ideal ⟨2, ![1, K]⟩ .f32) (p : Fin M) (k : Fin K) : EReal :=
  max ((a (ix2 p k) : EReal) + (b (ix2 (0 : Fin 1) k) : EReal)) (Ideal.ofBits .f32 0x00000000#32 : EReal)

/-- The host's spelling of the clipped sum, at (p, k). -/
theorem host_biasClip_apply (hb : (⟨2, ![1, K]⟩ : Shape).BroadcastsInDim ⟨2, ![M, K]⟩ ![0, 1])
    (h0 : (⟨0, ![]⟩ : Shape).BroadcastsInDim ⟨2, ![M, K]⟩ ![])
    (a : FVec Ideal ⟨2, ![M, K]⟩ .f32) (b : FVec Ideal ⟨2, ![1, K]⟩ .f32) (p : Fin M) (k : Fin K) :
    maximumf (addf a (broadcastInDim ⟨2, ![M, K]⟩ ![0, 1] hb b))
        (broadcastInDim ⟨2, ![M, K]⟩ ![] h0 (constant (F := Ideal) ⟨0, ![]⟩ .f32 0x00000000#32)) (ix2 p k)
      = biasClip a b p k := by
  rw [maximumf_apply, addf_apply, broadcastInDim_1b_ab_apply, broadcastInDim_scalar_apply, constant_apply]
  rfl

/-- The kernel's spelling of the clipped sum on a tile, at (p, k). -/
theorem tile_biasClip_apply (hs : (⟨2, ![M, K]⟩ : Shape).ShapeCasts ⟨2, ![M, K]⟩)
    (hs' : (⟨2, ![1, K]⟩ : Shape).ShapeCasts ⟨2, ![1, K]⟩) (hbt : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    maximumf (addf (shapeCast ⟨2, ![M, K]⟩ x hs) (broadcastTo ⟨2, ![M, K]⟩ (shapeCast ⟨2, ![1, K]⟩ b hs') hbt))
        (broadcast ⟨2, ![M, K]⟩ (Scalar.ofBits (F := Ideal) .f32 0x00000000#32)) (ix2 p k)
      = biasClip x b p k := by
  rw [maximumf_apply, addf_apply, shapeCast_self, shapeCast_self, ValueIdx.broadcastTo_1b_ab_apply, broadcast_apply]
  rfl

/-- The same with the first operand as it stands (no cast): a product's result plus the bias row, clipped. -/
theorem tile_biasClip_apply' (hs' : (⟨2, ![1, K]⟩ : Shape).ShapeCasts ⟨2, ![1, K]⟩)
    (hbt : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    maximumf (addf x (broadcastTo ⟨2, ![M, K]⟩ (shapeCast ⟨2, ![1, K]⟩ b hs') hbt))
        (broadcast ⟨2, ![M, K]⟩ (Scalar.ofBits (F := Ideal) .f32 0x00000000#32)) (ix2 p k)
      = biasClip x b p k := by
  rw [maximumf_apply, addf_apply, shapeCast_self, ValueIdx.broadcastTo_1b_ab_apply, broadcast_apply]
  rfl

/-- Two matrices with equal rows p and P, and equal bias rows, have equal clipped entries there. -/
theorem biasClip_congr {M' : ℕ} (x : FVec Ideal ⟨2, ![M, K]⟩ .f32) (a : FVec Ideal ⟨2, ![M', K]⟩ .f32)
    (b b' : FVec Ideal ⟨2, ![1, K]⟩ .f32) (p : Fin M) (P : Fin M') (k : Fin K)
    (hx : x (ix2 p k) = a (ix2 P k)) (hb : b (ix2 (0 : Fin 1) k) = b' (ix2 (0 : Fin 1) k)) :
    biasClip x b p k = biasClip a b' P k := by
  unfold biasClip; rw [hx, hb]

/-! ## Matrix products of such matrices, read at an entry -/

/-- A tile's product of bf16-rounded operands into a zero accumulator, at (p, q): the sum over k of x (p, k) · w (k, q). -/
theorem tile_dense_apply (wf : DotDims.WF ⟨2, ![M, K]⟩ ⟨2, ![K, N]⟩ ⟨2, ![M, N]⟩ [1] [0] [0] [1] [] [])
    (h1 : FTy.bf16.bits < FTy.f32.bits)
    (x : FVec Ideal ⟨2, ![M, K]⟩ .f32) (w : FVec Ideal ⟨2, ![K, N]⟩ .f32) (p : Fin M) (q : Fin N) :
    FloatOps.matmul (plainDot M K N wf) none (truncf .bf16 x h1) (truncf .bf16 w h1)
        (constant (F := Ideal) ⟨2, ![M, N]⟩ .f32 0x00000000#32) (ix2 p q)
      = ∑ k : Fin K, (x (ix2 p k) : EReal) * (w (ix2 k q) : EReal) := by
  rw [matmul_zero_apply]
  rfl

/-- The host's product, at (p, q). -/
theorem host_dense_apply (wf : DotDims.WF ⟨2, ![M, K]⟩ ⟨2, ![K, N]⟩ ⟨2, ![M, N]⟩ [1] [0] [0] [1] [] [])
    (a : FVec Ideal ⟨2, ![M, K]⟩ .f32) (w : FVec Ideal ⟨2, ![K, N]⟩ .f32) (p : Fin M) (q : Fin N) :
    Host.dotGeneral (F := Ideal) (plainDot M K N wf) none a w (ix2 p q)
      = ∑ k : Fin K, (a (ix2 p k) : EReal) * (w (ix2 k q) : EReal) := by
  simp only [Host.dotGeneral]
  exact dotGeneral_plain_apply wf none _ a w p q

/-- A tile's product whose left operand is the clipped sum, at (p, q). -/
theorem tile_biasClip_dense_apply (wf : DotDims.WF ⟨2, ![M, K]⟩ ⟨2, ![K, N]⟩ ⟨2, ![M, N]⟩ [1] [0] [0] [1] [] [])
    (hs : (⟨2, ![M, K]⟩ : Shape).ShapeCasts ⟨2, ![M, K]⟩)
    (hs' : (⟨2, ![1, K]⟩ : Shape).ShapeCasts ⟨2, ![1, K]⟩) (hbt : (⟨2, ![1, K]⟩ : Shape).Broadcasts ⟨2, ![M, K]⟩)
    (h1 : FTy.bf16.bits < FTy.f32.bits)
    (x : FVec Ideal ⟨2, ![M, K]⟩ .f32) (b : FVec Ideal ⟨2, ![1, K]⟩ .f32) (w : FVec Ideal ⟨2, ![K, N]⟩ .f32)
    (p : Fin M) (q : Fin N) :
    FloatOps.matmul (plainDot M K N wf) none
        (truncf .bf16 (maximumf (addf (shapeCast ⟨2, ![M, K]⟩ x hs) (broadcastTo ⟨2, ![M, K]⟩ (shapeCast ⟨2, ![1, K]⟩ b hs') hbt))
          (broadcast ⟨2, ![M, K]⟩ (Scalar.ofBits (F := Ideal) .f32 0x00000000#32))) h1)
        (truncf .bf16 w h1) (constant (F := Ideal) ⟨2, ![M, N]⟩ .f32 0x00000000#32) (ix2 p q)
      = ∑ k : Fin K, biasClip x b p k * (w (ix2 k q) : EReal) := by
  rw [matmul_zero_apply]
  refine Finset.sum_congr rfl fun k _ => ?_
  rw [truncf_apply, truncf_apply, tile_biasClip_apply]

/-- The host's product whose left operand is the clipped sum, at (p, q). -/
theorem host_biasClip_dense_apply (wf : DotDims.WF ⟨2, ![M, K]⟩ ⟨2, ![K, N]⟩ ⟨2, ![M, N]⟩ [1] [0] [0] [1] [] [])
    (hb : (⟨2, ![1, K]⟩ : Shape).BroadcastsInDim ⟨2, ![M, K]⟩ ![0, 1])
    (h0 : (⟨0, ![]⟩ : Shape).BroadcastsInDim ⟨2, ![M, K]⟩ ![])
    (a : FVec Ideal ⟨2, ![M, K]⟩ .f32) (b : FVec Ideal ⟨2, ![1, K]⟩ .f32) (w : FVec Ideal ⟨2, ![K, N]⟩ .f32)
    (p : Fin M) (q : Fin N) :
    Host.dotGeneral (F := Ideal) (plainDot M K N wf) none
        (maximumf (addf a (broadcastInDim ⟨2, ![M, K]⟩ ![0, 1] hb b))
          (broadcastInDim ⟨2, ![M, K]⟩ ![] h0 (constant (F := Ideal) ⟨0, ![]⟩ .f32 0x00000000#32))) w (ix2 p q)
      = ∑ k : Fin K, biasClip a b p k * (w (ix2 k q) : EReal) := by
  rw [host_dense_apply]
  refine Finset.sum_congr rfl fun k _ => ?_
  rw [host_biasClip_apply]

/-! ## A two-layer head: product, bias row, clip, product, bias row -/

/-- Entry (p, q) of the head: the sum over j of max ((Σ k, x (p, k) · w1 (k, j)) + b1 (0, j)) 0 · w2 (j, q), plus b2 (0, q). -/
def headVal {H : ℕ} (x : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) (p : Fin M) (q : Fin N) : EReal :=
  (∑ j : Fin H, max ((∑ k : Fin K, (x (ix2 p k) : EReal) * (w1 (ix2 k j) : EReal)) + (b1 (ix2 (0 : Fin 1) j) : EReal))
      (Ideal.ofBits .f32 0x00000000#32 : EReal) * (w2 (ix2 j q) : EReal))
    + (b2 (ix2 (0 : Fin 1) q) : EReal)

/-- The kernel's spelling of the head on whole staged arrays, at (p, q). -/
theorem tile_head_apply {H : ℕ}
    (wf1 : DotDims.WF ⟨2, ![M, K]⟩ ⟨2, ![K, H]⟩ ⟨2, ![M, H]⟩ [1] [0] [0] [1] [] [])
    (wf2 : DotDims.WF ⟨2, ![M, H]⟩ ⟨2, ![H, N]⟩ ⟨2, ![M, N]⟩ [1] [0] [0] [1] [] [])
    (hs : (⟨2, ![M, K]⟩ : Shape).ShapeCasts ⟨2, ![M, K]⟩)
    (hs1 : (⟨2, ![1, H]⟩ : Shape).ShapeCasts ⟨2, ![1, H]⟩) (hb1 : (⟨2, ![1, H]⟩ : Shape).Broadcasts ⟨2, ![M, H]⟩)
    (hs2 : (⟨2, ![1, N]⟩ : Shape).ShapeCasts ⟨2, ![1, N]⟩) (hb2 : (⟨2, ![1, N]⟩ : Shape).Broadcasts ⟨2, ![M, N]⟩)
    (h1 : FTy.bf16.bits < FTy.f32.bits)
    (x : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) (p : Fin M) (q : Fin N) :
    addf (FloatOps.matmul (plainDot M H N wf2) none
          (truncf .bf16 (maximumf (addf
              (FloatOps.matmul (plainDot M K H wf1) none (truncf .bf16 (shapeCast ⟨2, ![M, K]⟩ x hs) h1) (truncf .bf16 w1 h1)
                (constant (F := Ideal) ⟨2, ![M, H]⟩ .f32 0x00000000#32))
              (broadcastTo ⟨2, ![M, H]⟩ (shapeCast ⟨2, ![1, H]⟩ b1 hs1) hb1))
            (broadcast ⟨2, ![M, H]⟩ (Scalar.ofBits (F := Ideal) .f32 0x00000000#32))) h1)
          (truncf .bf16 w2 h1) (constant (F := Ideal) ⟨2, ![M, N]⟩ .f32 0x00000000#32))
        (broadcastTo ⟨2, ![M, N]⟩ (shapeCast ⟨2, ![1, N]⟩ b2 hs2) hb2) (ix2 p q)
      = headVal x w1 b1 w2 b2 p q := by
  rw [addf_apply, matmul_zero_apply, shapeCast_self b2, ValueIdx.broadcastTo_1b_ab_apply]
  unfold headVal
  refine congrArg (· + (b2 (ix2 (0 : Fin 1) q) : EReal)) (Finset.sum_congr rfl fun j _ => ?_)
  rw [truncf_apply, truncf_apply, tile_biasClip_apply']
  unfold biasClip
  rw [matmul_zero_apply, shapeCast_self x]
  rfl

/-- The host's spelling of the head, at (p, q). -/
theorem host_head_apply {H : ℕ}
    (wf1 : DotDims.WF ⟨2, ![M, K]⟩ ⟨2, ![K, H]⟩ ⟨2, ![M, H]⟩ [1] [0] [0] [1] [] [])
    (wf2 : DotDims.WF ⟨2, ![M, H]⟩ ⟨2, ![H, N]⟩ ⟨2, ![M, N]⟩ [1] [0] [0] [1] [] [])
    (hb1 : (⟨2, ![1, H]⟩ : Shape).BroadcastsInDim ⟨2, ![M, H]⟩ ![0, 1])
    (h0 : (⟨0, ![]⟩ : Shape).BroadcastsInDim ⟨2, ![M, H]⟩ ![])
    (hb2 : (⟨2, ![1, N]⟩ : Shape).BroadcastsInDim ⟨2, ![M, N]⟩ ![0, 1])
    (x : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) (p : Fin M) (q : Fin N) :
    addf (Host.dotGeneral (F := Ideal) (plainDot M H N wf2) none
          (maximumf (addf (Host.dotGeneral (F := Ideal) (φ₁ := .f32) (φ₂ := .f32) (plainDot M K H wf1) none x w1)
              (broadcastInDim ⟨2, ![M, H]⟩ ![0, 1] hb1 b1))
            (broadcastInDim ⟨2, ![M, H]⟩ ![] h0 (constant (F := Ideal) ⟨0, ![]⟩ .f32 0x00000000#32))) w2)
        (broadcastInDim ⟨2, ![M, N]⟩ ![0, 1] hb2 b2) (ix2 p q)
      = headVal x w1 b1 w2 b2 p q := by
  rw [addf_apply, host_biasClip_dense_apply, broadcastInDim_1b_ab_apply]
  unfold headVal
  refine congrArg (· + (b2 (ix2 (0 : Fin 1) q) : EReal)) (Finset.sum_congr rfl fun j _ => ?_)
  unfold biasClip
  rw [host_dense_apply]

/-! ## A vector as one row -/

/-- A vector [n] reshaped to one row [1, n] is the vector placed on axis 1 by broadcast_in_dim: both read, at (0, q), entry q. -/
theorem reshape_row_eq {n : ℕ} {α : Type} (v : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ v h = broadcastInDim ⟨2, ![1, n]⟩ ![1] h' v := by
  funext i
  obtain ⟨u, q, rfl⟩ : ∃ (u : Fin 1) (q : Fin n), i = ix2 u q := ⟨i 0, i 1, eq_ix2 i⟩
  rw [ValueIdx.shapeCast_a_1a_apply, broadcastInDim_b_1b_apply]

end Cert.Lib

end
-- ==== Proof.Region3.lean ====
/-
  Region 3 (the third layer's bias and clip at zero) as a whole-array function. Ten grid points; point t loads rows
  5000 t … 5000 t + 4999 of the aggregated features [50000, 128] and the bias row [1, 128], and stores the same rows of the
  output: entry (p, q) of a tile is max (a (5000 t + p, q) + b (0, q)) 0, entry (5000 t + p, q) of the same operation on the
  whole arrays. The ten blocks tile the output.
-/
import proofs.«108873_j65489661330093_1_alg».proof.Proof.Gen.KernelIdeal.Frame
import proofs.«108873_j65489661330093_1_alg».proof.Proof.Spec
import proofs.«108873_j65489661330093_1_alg».proof.Proof.LibBiasClip

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The body's stored value at (p, q). -/
theorem pay3_apply (x0 : Vec Ideal S5000x128 .f32) (x1 : Vec Ideal S1x128 .f32) (p : Fin 5000) (q : Fin 128) :
    k3_pay1 x0 x1 (ix2 p q) = Cert.Lib.biasClip x0 x1 p q := by
  unfold k3_pay1
  exact Cert.Lib.tile_biasClip_apply (M := 5000) (K := 128) _ _ _ x0 x1 p q

/-- The whole arrays' stage at (P, q). -/
theorem stage3_apply (a : FVec Ideal S50000x128 .f32) (b : FVec Ideal S1x128 .f32) (P : Fin 50000) (q : Fin 128) :
    Cert.Spec.stage3 a b (ix2 P q) = Cert.Lib.biasClip a b P q := by
  unfold Cert.Spec.stage3
  exact Cert.Lib.host_biasClip_apply (M := 50000) (K := 128) _ _ a b P q

/-- The windows' block indices at a grid point. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt10_3 (t : Fin cfg3.N) : t.val < 10 := by
  have h := t.isLt
  have hN : cfg3.N = 10 := N_3
  omega

/-- Row p of point t's tile is row 5000 t + p of the whole matrix. -/
def row3 (t : Fin cfg3.N) (p : Fin 5000) : Fin 50000 :=
  ⟨5000 * t.val + p.val, by have := lt10_3 t; have := p.isLt; omega⟩

theorem read3_0 (c : Dev nD) (t : Fin cfg3.N) (p : Fin 5000) (k : Fin 128) :
    iblk3 V c 0 t (ix2 p k) = V c main_v70 (ix2 (row3 t p) k) := by
  obtain ⟨e0, e1, -⟩ := idx3 t
  show V c main_v70 (((cfg3.win 0).blk t).view.emb (ix2 p k)) = _
  refine congrArg (V c main_v70) (funext fun a => Fin.ext ?_)
  match a with
  | ⟨0, _⟩ => show win3_0.index t (0 : Fin 2) * 5000 + 1 * p.val = 5000 * t.val + p.val; omega
  | ⟨1, _⟩ => show win3_0.index t (1 : Fin 2) * 128 + 1 * k.val = k.val; omega

theorem read3_1 (c : Dev nD) (t : Fin cfg3.N) (u : Fin 1) (k : Fin 128) :
    iblk3 V c 1 t (ix2 u k) = V c main_v71 (ix2 u k) := by
  obtain ⟨-, -, e0, e1, -⟩ := idx3 t
  show V c main_v71 (((cfg3.win 1).blk t).view.emb (ix2 u k)) = _
  refine congrArg (V c main_v71) (funext fun a => Fin.ext ?_)
  match a with
  | ⟨0, _⟩ => show win3_1.index t (0 : Fin 2) * 1 + 1 * u.val = u.val; omega
  | ⟨1, _⟩ => show win3_1.index t (1 : Fin 2) * 128 + 1 * k.val = k.val; omega

theorem emb3_2 (t : Fin cfg3.N) (p : Fin 5000) (q : Fin 128) :
    ((cfg3.win 2).blk t).view.emb (ix2 p q) = ix2 (row3 t p) q := by
  obtain ⟨-, -, -, -, e0, e1⟩ := idx3 t
  refine funext fun a => Fin.ext ?_
  match a with
  | ⟨0, _⟩ => show win3_2.index t (0 : Fin 2) * 5000 + 1 * p.val = 5000 * t.val + p.val; omega
  | ⟨1, _⟩ => show win3_2.index t (1 : Fin 2) * 128 + 1 * q.val = q.val; omega

/-- What point t writes back is block t of the whole arrays' stage. -/
theorem flushed3 (c : Dev nD) (t : Fin cfg3.N) :
    (dat3 (F := Ideal) V c).flushed 2 t = ((cfg3.win 2).blk t).view.read (Elt Ideal)
      (Cert.Spec.stage3 (V c main_v70) (V c main_v71)) := by
  show (cfg3.win 2).cut (grid3.coords t) ((dat3 V c).after 2 t) = _
  rw [after3_2]
  unfold out3_2
  rw [View.canon_unit_zero hz3]
  simp only [View.ld_unit_zero (S := S5000x128) hz3, View.ld_unit_zero (S := S1x128) hz3]
  funext j
  obtain ⟨p, q, rfl⟩ : ∃ (p : Fin 5000) (q : Fin 128), j = ix2 p q := ⟨j 0, j 1, eq_ix2 j⟩
  show k3_pay1 (iblk3 V c 0 t) (iblk3 V c 1 t) (ix2 p q)
    = Cert.Spec.stage3 (V c main_v70) (V c main_v71) (((cfg3.win 2).blk t).view.emb (ix2 p q))
  rw [emb3_2 t p q]
  refine (pay3_apply (iblk3 V c 0 t) (iblk3 V c 1 t) p q).trans ?_
  refine Eq.trans ?_ (stage3_apply (V c main_v70) (V c main_v71) (row3 t p) q).symm
  exact Cert.Lib.biasClip_congr (iblk3 V c 0 t) (V c main_v70) (iblk3 V c 1 t) (V c main_v71) p (row3 t p) q
    (read3_0 V c t p q) (read3_1 V c t 0 q)

theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v72).slice (win3_2.rect t)).set ↔ _
  rw [View.set_slice_whole, Rect.mem_set_unit]
  exact Iff.rfl

theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  let t : Fin cfg3.N := ⟨(i 0).val / 5000, by omega⟩
  obtain ⟨-, -, -, -, e0, e1⟩ := idx3 t
  have ht : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE REGION'S VALUE: after the region its output array is the whole arrays' stage of the arrays it entered with. -/
theorem value3 (c : Dev nD) :
    (dat3 (F := Ideal) V c).arrAt 2 cfg3.N = Cert.Spec.stage3 (V c main_v70) (V c main_v71) :=
  (dat3 (F := Ideal) V c).arrAt_eq_of_cover 2 _ (fun t _ => flushed3 V c t) (cover3)

end Cert.KernelIdeal.Regions

end
-- ==== Proof.Region4.lean ====
/-
  Region 4 (the two-layer head) as a whole-array function. One grid point: every window's block is its whole array — the
  pooled features [64, 128], the matrices [128, 64] and [64, 10], the bias rows [1, 64] and [1, 10] — and the one store writes
  the whole output [64, 10]. Entry (p, q) is the sum over j of max ((Σ k, x (p, k) · w1 (k, j)) + b1 (0, j)) 0 · w2 (j, q), plus
  b2 (0, q), in the kernel's spelling and in the host's.
-/
import proofs.«108873_j65489661330093_1_alg».proof.Proof.Gen.KernelIdeal.Frame
import proofs.«108873_j65489661330093_1_alg».proof.Proof.Spec
import proofs.«108873_j65489661330093_1_alg».proof.Proof.LibBiasClip

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The body's stored value at (p, q). -/
theorem pay4_apply (x0 : Vec Ideal S64x128 .f32) (x1 : Vec Ideal S128x64 .f32) (x2 : Vec Ideal S1x64 .f32)
    (x3 : Vec Ideal S64x10 .f32) (x4 : Vec Ideal S1x10 .f32) (p : Fin 64) (q : Fin 10) :
    k4_pay1 x0 x1 x2 x3 x4 (ix2 p q) = Cert.Lib.headVal x0 x1 x2 x3 x4 p q := by
  unfold k4_pay1
  exact Cert.Lib.tile_head_apply (M := 64) (K := 128) (H := 64) (N := 10) dot_S64x128_S128x64_S64x64_1_0_0_1_n_n.wf
    dot_S64x64_S64x10_S64x10_1_0_0_1_n_n.wf _ _ _ _ _ _ x0 x1 x2 x3 x4 p q

/-- The host's head at (p, q). -/
theorem stage4_apply (x : FVec Ideal S64x128 .f32) (w1 : FVec Ideal S128x64 .f32) (b1 : FVec Ideal S1x64 .f32)
    (w2 : FVec Ideal S64x10 .f32) (b2 : FVec Ideal S1x10 .f32) (p : Fin 64) (q : Fin 10) :
    Cert.Spec.stage4 x w1 b1 w2 b2 (ix2 p q) = Cert.Lib.headVal x w1 b1 w2 b2 p q := by
  unfold Cert.Spec.stage4
  exact Cert.Lib.host_head_apply (M := 64) (K := 128) (H := 64) (N := 10) Cert.ReferenceIdeal.dot_S64x128_S128x64_S64x64_1_0_0_1_n_n.wf
    Cert.ReferenceIdeal.dot_S64x64_S64x10_S64x10_1_0_0_1_n_n.wf _ _ _ x w1 b1 w2 b2 p q

/-- The one grid point's block indices are all zero. -/
theorem idx4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

theorem read4_0 (c : Dev nD) (t : Fin cfg4.N) (p : Fin 64) (k : Fin 128) :
    iblk4 V c 0 t (ix2 p k) = V c main_v84 (ix2 p k) := by
  obtain ⟨e0, e1, -⟩ := idx4 t
  show V c main_v84 (((cfg4.win 0).blk t).view.emb (ix2 p k)) = _
  refine congrArg (V c main_v84) (funext fun a => Fin.ext ?_)
  match a with
  | ⟨0, _⟩ => show win4_0.index t (0 : Fin 2) * 64 + 1 * p.val = p.val; omega
  | ⟨1, _⟩ => show win4_0.index t (1 : Fin 2) * 128 + 1 * k.val = k.val; omega

theorem read4_1 (c : Dev nD) (t : Fin cfg4.N) (k : Fin 128) (j : Fin 64) :
    iblk4 V c 1 t (ix2 k j) = V c main_arg9 (ix2 k j) := by
  obtain ⟨-, -, e0, e1, -⟩ := idx4 t
  show V c main_arg9 (((cfg4.win 1).blk t).view.emb (ix2 k j)) = _
  refine congrArg (V c main_arg9) (funext fun a => Fin.ext ?_)
  match a with
  | ⟨0, _⟩ => show win4_1.index t (0 : Fin 2) * 128 + 1 * k.val = k.val; omega
  | ⟨1, _⟩ => show win4_1.index t (1 : Fin 2) * 64 + 1 * j.val = j.val; omega

theorem read4_2 (c : Dev nD) (t : Fin cfg4.N) (u : Fin 1) (j : Fin 64) :
    iblk4 V c 2 t (ix2 u j) = V c main_v85 (ix2 u j) := by
  obtain ⟨-, -, -, -, e0, e1, -⟩ := idx4 t
  show V c main_v85 (((cfg4.win 2).blk t).view.emb (ix2 u j)) = _
  refine congrArg (V c main_v85) (funext fun a => Fin.ext ?_)
  match a with
  | ⟨0, _⟩ => show win4_2.index t (0 : Fin 2) * 1 + 1 * u.val = u.val; omega
  | ⟨1, _⟩ => show win4_2.index t (1 : Fin 2) * 64 + 1 * j.val = j.val; omega

theorem read4_3 (c : Dev nD) (t : Fin cfg4.N) (j : Fin 64) (q : Fin 10) :
    iblk4 V c 3 t (ix2 j q) = V c main_arg11 (ix2 j q) := by
  obtain ⟨-, -, -, -, -, -, e0, e1, -⟩ := idx4 t
  show V c main_arg11 (((cfg4.win 3).blk t).view.emb (ix2 j q)) = _
  refine congrArg (V c main_arg11) (funext fun a => Fin.ext ?_)
  match a with
  | ⟨0, _⟩ => show win4_3.index t (0 : Fin 2) * 64 + 1 * j.val = j.val; omega
  | ⟨1, _⟩ => show win4_3.index t (1 : Fin 2) * 10 + 1 * q.val = q.val; omega

theorem read4_4 (c : Dev nD) (t : Fin cfg4.N) (u : Fin 1) (q : Fin 10) :
    iblk4 V c 4 t (ix2 u q) = V c main_v86 (ix2 u q) := by
  obtain ⟨-, -, -, -, -, -, -, -, e0, e1, -⟩ := idx4 t
  show V c main_v86 (((cfg4.win 4).blk t).view.emb (ix2 u q)) = _
  refine congrArg (V c main_v86) (funext fun a => Fin.ext ?_)
  match a with
  | ⟨0, _⟩ => show win4_4.index t (0 : Fin 2) * 1 + 1 * u.val = u.val; omega
  | ⟨1, _⟩ => show win4_4.index t (1 : Fin 2) * 10 + 1 * q.val = q.val; omega

theorem emb4_5 (t : Fin cfg4.N) (p : Fin 64) (q : Fin 10) :
    ((cfg4.win 5).blk t).view.emb (ix2 p q) = ix2 p q := by
  obtain ⟨-, -, -, -, -, -, -, -, -, -, e0, e1⟩ := idx4 t
  refine funext fun a => Fin.ext ?_
  match a with
  | ⟨0, _⟩ => show win4_5.index t (0 : Fin 2) * 64 + 1 * p.val = p.val; omega
  | ⟨1, _⟩ => show win4_5.index t (1 : Fin 2) * 10 + 1 * q.val = q.val; omega

/-- Two heads whose operands agree entry by entry agree. -/
theorem headVal_congr (x x' : FVec Ideal S64x128 .f32) (w1 w1' : FVec Ideal S128x64 .f32) (b1 b1' : FVec Ideal S1x64 .f32)
    (w2 w2' : FVec Ideal S64x10 .f32) (b2 b2' : FVec Ideal S1x10 .f32) (p : Fin 64) (q : Fin 10)
    (hx : ∀ k, x (ix2 p k) = x' (ix2 p k)) (hw1 : ∀ k j, w1 (ix2 k j) = w1' (ix2 k j)) (hb1 : ∀ j, b1 (ix2 0 j) = b1' (ix2 0 j))
    (hw2 : ∀ j, w2 (ix2 j q) = w2' (ix2 j q)) (hb2 : b2 (ix2 0 q) = b2' (ix2 0 q)) :
    Cert.Lib.headVal x w1 b1 w2 b2 p q = Cert.Lib.headVal x' w1' b1' w2' b2' p q := by
  unfold Cert.Lib.headVal
  rw [hb2]
  refine congrArg (· + (b2' (ix2 (0 : Fin 1) q) : EReal)) (Finset.sum_congr rfl fun j _ => ?_)
  rw [hw2 j, hb1 j]
  refine congrArg (fun s : EReal => max (s + (b1' (ix2 (0 : Fin 1) j) : EReal)) (Ideal.ofBits .f32 0x00000000#32 : EReal) * (w2' (ix2 j q) : EReal))
    (Finset.sum_congr rfl fun k _ => ?_)
  rw [hx k, hw1 k j]

/-- What the one point writes back is the whole head of the arrays the region entered with. -/
theorem flushed4 (c : Dev nD) (t : Fin cfg4.N) :
    (dat4 (F := Ideal) V c).flushed 5 t = ((cfg4.win 5).blk t).view.read (Elt Ideal)
      (Cert.Spec.stage4 (V c main_v84) (V c main_arg9) (V c main_v85) (V c main_arg11) (V c main_v86)) := by
  show (cfg4.win 5).cut (grid4.coords t) ((dat4 V c).after 5 t) = _
  rw [after4_5]
  unfold out4_5
  rw [View.canon_unit_zero hz4]
  simp only [View.ld_unit_zero (S := S64x128) hz4, View.ld_unit_zero (S := S128x64) hz4, View.ld_unit_zero (S := S1x64) hz4,
    View.ld_unit_zero (S := S64x10) hz4, View.ld_unit_zero (S := S1x10) hz4]
  funext j
  obtain ⟨p, q, rfl⟩ : ∃ (p : Fin 64) (q : Fin 10), j = ix2 p q := ⟨j 0, j 1, eq_ix2 j⟩
  show k4_pay1 (iblk4 V c 0 t) (iblk4 V c 1 t) (iblk4 V c 2 t) (iblk4 V c 3 t) (iblk4 V c 4 t) (ix2 p q)
    = Cert.Spec.stage4 (V c main_v84) (V c main_arg9) (V c main_v85) (V c main_arg11) (V c main_v86) (((cfg4.win 5).blk t).view.emb (ix2 p q))
  rw [emb4_5 t p q]
  refine (pay4_apply (iblk4 V c 0 t) (iblk4 V c 1 t) (iblk4 V c 2 t) (iblk4 V c 3 t) (iblk4 V c 4 t) p q).trans ?_
  refine Eq.trans ?_ (stage4_apply (V c main_v84) (V c main_arg9) (V c main_v85) (V c main_arg11) (V c main_v86) p q).symm
  exact headVal_congr (iblk4 V c 0 t) (V c main_v84) (iblk4 V c 1 t) (V c main_arg9) (iblk4 V c 2 t) (V c main_v85)
    (iblk4 V c 3 t) (V c main_arg11) (iblk4 V c 4 t) (V c main_v86) p q
    (fun k => read4_0 V c t p k) (fun k j => read4_1 V c t k j) (fun j => read4_2 V c t 0 j)
    (fun j => read4_3 V c t j q) (read4_4 V c t 0 q)

theorem mem_blk4 (t : Fin cfg4.N) (i : S64x10.Idx) :
    i ∈ ((cfg4.win 5).blk t).view.set ↔ ∀ a : Fin 2, win4_5.index t a * S64x10.size a ≤ (i a).val ∧ (i a).val < win4_5.index t a * S64x10.size a + S64x10.size a := by
  show i ∈ ((View.whole main_v87).slice (win4_5.rect t)).set ↔ _
  rw [View.set_slice_whole, Rect.mem_set_unit]
  exact Iff.rfl

theorem cover4 (i : S64x10.Idx) :
    ∃ t : Fin cfg4.N, (cfg4.win 5).flush t = true ∧ i ∈ ((cfg4.win 5).blk t).view.set := by
  have hi0 : (i 0).val < 64 := (i 0).isLt
  have hi1 : (i 1).val < 10 := (i 1).isLt
  have hN : cfg4.N = 1 := N_4
  let t : Fin cfg4.N := ⟨0, by omega⟩
  obtain ⟨-, -, -, -, -, -, -, -, -, -, e0, e1⟩ := idx4 t
  refine ⟨t, flush4_5 t, ?_⟩
  rw [mem_blk4]
  intro a
  match a with
  | ⟨0, _⟩ => show win4_5.index t (0 : Fin 2) * 64 ≤ (i 0).val ∧ (i 0).val < win4_5.index t (0 : Fin 2) * 64 + 64; omega
  | ⟨1, _⟩ => show win4_5.index t (1 : Fin 2) * 10 ≤ (i 1).val ∧ (i 1).val < win4_5.index t (1 : Fin 2) * 10 + 10; omega

/-- THE REGION'S VALUE: after the region its output array is the head of the arrays it entered with. -/
theorem value4 (c : Dev nD) :
    (dat4 (F := Ideal) V c).arrAt 5 cfg4.N
      = Cert.Spec.stage4 (V c main_v84) (V c main_arg9) (V c main_v85) (V c main_arg11) (V c main_v86) :=
  (dat4 (F := Ideal) V c).arrAt_eq_of_cover 5 _ (fun t _ => flushed4 V c t) (cover4)

end Cert.KernelIdeal.Regions

end
-- ==== Proof.Region1.lean ====
/-
  Region 1 (bias, clip at zero, matrix product) as a whole-array function. The region runs ten grid points; point t loads
  rows 5000 t … 5000 t + 4999 of the aggregated features [50000, 64], the bias row [1, 64] and the matrix [64, 128], and
  stores rows 5000 t … 5000 t + 4999 of the output [50000, 128]. Entry (p, q) of a tile is the sum over k of
  max (a (5000 t + p, k) + b (0, k)) 0 · w (k, q), which is entry (5000 t + p, q) of the same stage taken on the whole arrays;
  the ten blocks tile the output, so after the region the output array is that stage of the arrays the region entered with.
-/
import proofs.«108873_j65489661330093_1_alg».proof.Proof.Gen.KernelIdeal.Frame
import proofs.«108873_j65489661330093_1_alg».proof.Proof.Spec
import proofs.«108873_j65489661330093_1_alg».proof.Proof.LibBiasClip

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The body's stored value at (p, q): the sum over k of the clipped, biased tile entry (p, k) times the matrix entry (k, q). -/
theorem pay1_apply (x0 : Vec Ideal S5000x64 .f32) (x1 : Vec Ideal S1x64 .f32) (x2 : Vec Ideal S64x128 .f32)
    (p : Fin 5000) (q : Fin 128) :
    k1_pay1 x0 x1 x2 (ix2 p q) = ∑ k : Fin 64, Cert.Lib.biasClip x0 x1 p k * (x2 (ix2 k q) : EReal) := by
  unfold k1_pay1
  exact Cert.Lib.tile_biasClip_dense_apply (M := 5000) (K := 64) (N := 128) dot_S5000x64_S64x128_S5000x128_1_0_0_1_n_n.wf _ _ _ _ x0 x1 x2 p q

/-- The whole arrays' stage at (P, q): the same sum over the whole matrix's row P. -/
theorem stage1_apply (a : FVec Ideal S50000x64 .f32) (b : FVec Ideal S1x64 .f32) (w : FVec Ideal S64x128 .f32)
    (P : Fin 50000) (q : Fin 128) :
    Cert.Spec.stage1 a b w (ix2 P q) = ∑ k : Fin 64, Cert.Lib.biasClip a b P k * (w (ix2 k q) : EReal) := by
  unfold Cert.Spec.stage1
  exact Cert.Lib.host_biasClip_dense_apply (M := 50000) (K := 64) (N := 128) Cert.ReferenceIdeal.dot_S50000x64_S64x128_S50000x128_1_0_0_1_n_n.wf _ _ a b w P q

/-- The windows' block indices at a grid point: the row windows move with the point, the bias row and the matrix stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt10_1 (t : Fin cfg1.N) : t.val < 10 := by
  have h := t.isLt
  have hN : cfg1.N = 10 := N_1
  omega

/-- Row p of point t's tile is row 5000 t + p of the whole matrix. -/
def row1 (t : Fin cfg1.N) (p : Fin 5000) : Fin 50000 :=
  ⟨5000 * t.val + p.val, by have := lt10_1 t; have := p.isLt; omega⟩

/-- The row window's block at a point, read at (p, k). -/
theorem read1_0 (c : Dev nD) (t : Fin cfg1.N) (p : Fin 5000) (k : Fin 64) :
    iblk1 V c 0 t (ix2 p k) = V c main_v40 (ix2 (row1 t p) k) := by
  obtain ⟨e0, e1, -⟩ := idx1 t
  show V c main_v40 (((cfg1.win 0).blk t).view.emb (ix2 p k)) = _
  refine congrArg (V c main_v40) (funext fun a => Fin.ext ?_)
  match a with
  | ⟨0, _⟩ => show win1_0.index t (0 : Fin 2) * 5000 + 1 * p.val = 5000 * t.val + p.val; omega
  | ⟨1, _⟩ => show win1_0.index t (1 : Fin 2) * 64 + 1 * k.val = k.val; omega

/-- The bias row's block is the bias row. -/
theorem read1_1 (c : Dev nD) (t : Fin cfg1.N) (u : Fin 1) (k : Fin 64) :
    iblk1 V c 1 t (ix2 u k) = V c main_v41 (ix2 u k) := by
  obtain ⟨-, -, e0, e1, -⟩ := idx1 t
  show V c main_v41 (((cfg1.win 1).blk t).view.emb (ix2 u k)) = _
  refine congrArg (V c main_v41) (funext fun a => Fin.ext ?_)
  match a with
  | ⟨0, _⟩ => show win1_1.index t (0 : Fin 2) * 1 + 1 * u.val = u.val; omega
  | ⟨1, _⟩ => show win1_1.index t (1 : Fin 2) * 64 + 1 * k.val = k.val; omega

/-- The matrix's block is the matrix. -/
theorem read1_2 (c : Dev nD) (t : Fin cfg1.N) (k : Fin 64) (q : Fin 128) :
    iblk1 V c 2 t (ix2 k q) = V c main_arg5 (ix2 k q) := by
  obtain ⟨-, -, -, -, e0, e1, -⟩ := idx1 t
  show V c main_arg5 (((cfg1.win 2).blk t).view.emb (ix2 k q)) = _
  refine congrArg (V c main_arg5) (funext fun a => Fin.ext ?_)
  match a with
  | ⟨0, _⟩ => show win1_2.index t (0 : Fin 2) * 64 + 1 * k.val = k.val; omega
  | ⟨1, _⟩ => show win1_2.index t (1 : Fin 2) * 128 + 1 * q.val = q.val; omega

/-- The output block's entry (p, q) sits at (5000 t + p, q) of the whole array. -/
theorem emb1_3 (t : Fin cfg1.N) (p : Fin 5000) (q : Fin 128) :
    ((cfg1.win 3).blk t).view.emb (ix2 p q) = ix2 (row1 t p) q := by
  obtain ⟨-, -, -, -, -, -, e0, e1⟩ := idx1 t
  refine funext fun a => Fin.ext ?_
  match a with
  | ⟨0, _⟩ => show win1_3.index t (0 : Fin 2) * 5000 + 1 * p.val = 5000 * t.val + p.val; omega
  | ⟨1, _⟩ => show win1_3.index t (1 : Fin 2) * 128 + 1 * q.val = q.val; omega

/-- What point t writes back is block t of the whole arrays' stage. -/
theorem flushed1 (c : Dev nD) (t : Fin cfg1.N) :
    (dat1 (F := Ideal) V c).flushed 3 t = ((cfg1.win 3).blk t).view.read (Elt Ideal)
      (Cert.Spec.stage1 (V c main_v40) (V c main_v41) (V c main_arg5)) := by
  show (cfg1.win 3).cut (grid1.coords t) ((dat1 V c).after 3 t) = _
  rw [after1_3]
  unfold out1_3
  rw [View.canon_unit_zero hz1]
  simp only [View.ld_unit_zero (S := S5000x64) hz1, View.ld_unit_zero (S := S1x64) hz1, View.ld_unit_zero (S := S64x128) hz1]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = Cert.Spec.stage1 (V c main_v40) (V c main_v41) (V c main_arg5) (((cfg1.win 3).blk t).view.emb (ix2 p q))
  rw [emb1_3 t p q]
  refine (pay1_apply (iblk1 V c 0 t) (iblk1 V c 1 t) (iblk1 V c 2 t) p q).trans ?_
  refine Eq.trans ?_ (stage1_apply (V c main_v40) (V c main_v41) (V c main_arg5) (row1 t p) q).symm
  refine Finset.sum_congr rfl fun k _ => ?_
  rw [Cert.Lib.biasClip_congr (iblk1 V c 0 t) (V c main_v40) (iblk1 V c 1 t) (V c main_v41) p (row1 t p) k
    (read1_0 V c t p k) (read1_1 V c t 0 k), read1_2 V c t k q]

/-- An index of the array is in point t's block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v42).slice (win1_3.rect t)).set ↔ _
  rw [View.set_slice_whole, Rect.mem_set_unit]
  exact Iff.rfl

/-- Every row of the array lies in the block of the point numbered by the row's quotient by 5000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by omega⟩
  obtain ⟨-, -, -, -, -, -, e0, e1⟩ := idx1 t
  have ht : t.val = (i 0).val / 5000 := rfl
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE REGION'S VALUE: after the region its output array is the whole arrays' stage of the arrays it entered with. -/
theorem value1 (c : Dev nD) :
    (dat1 (F := Ideal) V c).arrAt 3 cfg1.N = Cert.Spec.stage1 (V c main_v40) (V c main_v41) (V c main_arg5) :=
  (dat1 (F := Ideal) V c).arrAt_eq_of_cover 3 _ (fun t _ => flushed1 V c t) (cover1)

end Cert.KernelIdeal.Regions

end
-- ==== Proof.Region2.lean ====
/-
  Region 2 (bias, clip at zero, matrix product) as a whole-array function. Ten grid points; point t loads rows
  5000 t … 5000 t + 4999 of the aggregated features [50000, 128], the bias row [1, 128] and the matrix [128, 128], and stores
  the same rows of the output [50000, 128]. Entry (p, q) of a tile is the sum over k of max (a (5000 t + p, k) + b (0, k)) 0 · w (k, q):
  entry (5000 t + p, q) of the same stage on the whole arrays. The ten blocks tile the output.
-/
import proofs.«108873_j65489661330093_1_alg».proof.Proof.Gen.KernelIdeal.Frame
import proofs.«108873_j65489661330093_1_alg».proof.Proof.Spec
import proofs.«108873_j65489661330093_1_alg».proof.Proof.LibBiasClip

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The body's stored value at (p, q): the sum over k of the clipped, biased tile entry (p, k) times the matrix entry (k, q). -/
theorem pay2_apply (x0 : Vec Ideal S5000x128 .f32) (x1 : Vec Ideal S1x128 .f32) (x2 : Vec Ideal S128x128 .f32)
    (p : Fin 5000) (q : Fin 128) :
    k2_pay1 x0 x1 x2 (ix2 p q) = ∑ k : Fin 128, Cert.Lib.biasClip x0 x1 p k * (x2 (ix2 k q) : EReal) := by
  unfold k2_pay1
  exact Cert.Lib.tile_biasClip_dense_apply (M := 5000) (K := 128) (N := 128) dot_S5000x128_S128x128_S5000x128_1_0_0_1_n_n.wf _ _ _ _ x0 x1 x2 p q

/-- The whole arrays' stage at (P, q): the same sum over the whole matrix's row P. -/
theorem stage2_apply (a : FVec Ideal S50000x128 .f32) (b : FVec Ideal S1x128 .f32) (w : FVec Ideal S128x128 .f32)
    (P : Fin 50000) (q : Fin 128) :
    Cert.Spec.stage2 a b w (ix2 P q) = ∑ k : Fin 128, Cert.Lib.biasClip a b P k * (w (ix2 k q) : EReal) := by
  unfold Cert.Spec.stage2
  exact Cert.Lib.host_biasClip_dense_apply (M := 50000) (K := 128) (N := 128) Cert.ReferenceIdeal.dot_S50000x128_S128x128_S50000x128_1_0_0_1_n_n.wf _ _ a b w P q

/-- The windows' block indices at a grid point: the row windows move with the point, the bias row and the matrix stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt10_2 (t : Fin cfg2.N) : t.val < 10 := by
  have h := t.isLt
  have hN : cfg2.N = 10 := N_2
  omega

/-- Row p of point t's tile is row 5000 t + p of the whole matrix. -/
def row2 (t : Fin cfg2.N) (p : Fin 5000) : Fin 50000 :=
  ⟨5000 * t.val + p.val, by have := lt10_2 t; have := p.isLt; omega⟩

/-- The row window's block at a point, read at (p, k). -/
theorem read2_0 (c : Dev nD) (t : Fin cfg2.N) (p : Fin 5000) (k : Fin 128) :
    iblk2 V c 0 t (ix2 p k) = V c main_v55 (ix2 (row2 t p) k) := by
  obtain ⟨e0, e1, -⟩ := idx2 t
  show V c main_v55 (((cfg2.win 0).blk t).view.emb (ix2 p k)) = _
  refine congrArg (V c main_v55) (funext fun a => Fin.ext ?_)
  match a with
  | ⟨0, _⟩ => show win2_0.index t (0 : Fin 2) * 5000 + 1 * p.val = 5000 * t.val + p.val; omega
  | ⟨1, _⟩ => show win2_0.index t (1 : Fin 2) * 128 + 1 * k.val = k.val; omega

/-- The bias row's block is the bias row. -/
theorem read2_1 (c : Dev nD) (t : Fin cfg2.N) (u : Fin 1) (k : Fin 128) :
    iblk2 V c 1 t (ix2 u k) = V c main_v56 (ix2 u k) := by
  obtain ⟨-, -, e0, e1, -⟩ := idx2 t
  show V c main_v56 (((cfg2.win 1).blk t).view.emb (ix2 u k)) = _
  refine congrArg (V c main_v56) (funext fun a => Fin.ext ?_)
  match a with
  | ⟨0, _⟩ => show win2_1.index t (0 : Fin 2) * 1 + 1 * u.val = u.val; omega
  | ⟨1, _⟩ => show win2_1.index t (1 : Fin 2) * 128 + 1 * k.val = k.val; omega

/-- The matrix's block is the matrix. -/
theorem read2_2 (c : Dev nD) (t : Fin cfg2.N) (k : Fin 128) (q : Fin 128) :
    iblk2 V c 2 t (ix2 k q) = V c main_arg7 (ix2 k q) := by
  obtain ⟨-, -, -, -, e0, e1, -⟩ := idx2 t
  show V c main_arg7 (((cfg2.win 2).blk t).view.emb (ix2 k q)) = _
  refine congrArg (V c main_arg7) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- The output block's entry (p, q) sits at (5000 t + p, q) of the whole array. -/
theorem emb2_3 (t : Fin cfg2.N) (p : Fin 5000) (q : Fin 128) :
    ((cfg2.win 3).blk t).view.emb (ix2 p q) = ix2 (row2 t p) q := by
  obtain ⟨-, -, -, -, -, -, e0, e1⟩ := idx2 t
  refine funext fun a => Fin.ext ?_
  match a with
  | ⟨0, _⟩ => show win2_3.index t (0 : Fin 2) * 5000 + 1 * p.val = 5000 * t.val + p.val; omega
  | ⟨1, _⟩ => show win2_3.index t (1 : Fin 2) * 128 + 1 * q.val = q.val; omega

/-- What point t writes back is block t of the whole arrays' stage. -/
theorem flushed2 (c : Dev nD) (t : Fin cfg2.N) :
    (dat2 (F := Ideal) V c).flushed 3 t = ((cfg2.win 3).blk t).view.read (Elt Ideal)
      (Cert.Spec.stage2 (V c main_v55) (V c main_v56) (V c main_arg7)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S1x128) hz2, View.ld_unit_zero (S := S128x128) hz2]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = Cert.Spec.stage2 (V c main_v55) (V c main_v56) (V c main_arg7) (((cfg2.win 3).blk t).view.emb (ix2 p q))
  rw [emb2_3 t p q]
  refine (pay2_apply (iblk2 V c 0 t) (iblk2 V c 1 t) (iblk2 V c 2 t) p q).trans ?_
  refine Eq.trans ?_ (stage2_apply (V c main_v55) (V c main_v56) (V c main_arg7) (row2 t p) q).symm
  refine Finset.sum_congr rfl fun k _ => ?_
  rw [Cert.Lib.biasClip_congr (iblk2 V c 0 t) (V c main_v55) (iblk2 V c 1 t) (V c main_v56) p (row2 t p) k
    (read2_0 V c t p k) (read2_1 V c t 0 k), read2_2 V c t k q]

/-- An index of the array is in point t's block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v57).slice (win2_3.rect t)).set ↔ _
  rw [View.set_slice_whole, Rect.mem_set_unit]
  exact Iff.rfl

/-- Every row of the array lies in the block of the point numbered by the row's quotient by 5000. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  let t : Fin cfg2.N := ⟨(i 0).val / 5000, by omega⟩
  obtain ⟨-, -, -, -, -, -, e0, e1⟩ := idx2 t
  have ht : t.val = (i 0).val / 5000 := rfl
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE REGION'S VALUE: after the region its output array is the whole arrays' stage of the arrays it entered with. -/
theorem value2 (c : Dev nD) :
    (dat2 (F := Ideal) V c).arrAt 3 cfg2.N = Cert.Spec.stage2 (V c main_v55) (V c main_v56) (V c main_arg7) :=
  (dat2 (F := Ideal) V c).arrAt_eq_of_cover 3 _ (fun t _ => flushed2 V c t) (cover2)

end Cert.KernelIdeal.Regions

end
-- ==== Proof.Region0.lean ====
/-
  Region 0 (the first layer's matrix product) as a whole-array function. Ten grid points; point t loads rows
  5000 t … 5000 t + 4999 of the node features [50000, 3] and the matrix [3, 64], and stores the same rows of the output
  [50000, 64]: entry (p, q) of a tile is the sum over k of x (5000 t + p, k) · w (k, q) (rounding the operands to bf16 changes
  nothing over the extended reals), entry (5000 t + p, q) of the whole product. The ten blocks tile the output.
-/
import proofs.«108873_j65489661330093_1_alg».proof.Proof.Gen.KernelIdeal.Frame
import proofs.«108873_j65489661330093_1_alg».proof.Proof.Spec
import proofs.«108873_j65489661330093_1_alg».proof.Proof.LibBiasClip

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The body's stored value at (p, q). -/
theorem pay0_apply (x0 : Vec Ideal S5000x3 .f32) (x1 : Vec Ideal S3x64 .f32) (p : Fin 5000) (q : Fin 64) :
    k0_pay1 x0 x1 (ix2 p q) = ∑ k : Fin 3, (x0 (ix2 p k) : EReal) * (x1 (ix2 k q) : EReal) := by
  unfold k0_pay1
  exact Cert.Lib.tile_dense_apply (M := 5000) (K := 3) (N := 64) dot_S5000x3_S3x64_S5000x64_1_0_0_1_n_n.wf _ x0 x1 p q

/-- The whole product at (P, q). -/
theorem stage0_apply (a : FVec Ideal S50000x3 .f32) (w : FVec Ideal S3x64 .f32) (P : Fin 50000) (q : Fin 64) :
    Cert.Spec.stage0 a w (ix2 P q) = ∑ k : Fin 3, (a (ix2 P k) : EReal) * (w (ix2 k q) : EReal) := by
  unfold Cert.Spec.stage0
  exact Cert.Lib.host_dense_apply (M := 50000) (K := 3) (N := 64) Cert.ReferenceIdeal.dot_S50000x3_S3x64_S50000x64_1_0_0_1_n_n.wf a w P q

/-- The windows' block indices at a grid point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt10_0 (t : Fin cfg0.N) : t.val < 10 := by
  have h := t.isLt
  have hN : cfg0.N = 10 := N_0
  omega

/-- Row p of point t's tile is row 5000 t + p of the whole matrix. -/
def row0 (t : Fin cfg0.N) (p : Fin 5000) : Fin 50000 :=
  ⟨5000 * t.val + p.val, by have := lt10_0 t; have := p.isLt; omega⟩

theorem read0_0 (c : Dev nD) (t : Fin cfg0.N) (p : Fin 5000) (k : Fin 3) :
    iblk0 V c 0 t (ix2 p k) = V c main_arg0 (ix2 (row0 t p) k) := by
  obtain ⟨e0, e1, -⟩ := idx0 t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = 5000 * t.val + p.val; omega
  | ⟨1, _⟩ => show win0_0.index t (1 : Fin 2) * 3 + 1 * k.val = k.val; omega

theorem read0_1 (c : Dev nD) (t : Fin cfg0.N) (k : Fin 3) (q : Fin 64) :
    iblk0 V c 1 t (ix2 k q) = V c main_arg3 (ix2 k q) := by
  obtain ⟨-, -, e0, e1, -⟩ := idx0 t
  show V c main_arg3 (((cfg0.win 1).blk t).view.emb (ix2 k q)) = _
  refine congrArg (V c main_arg3) (funext fun a => Fin.ext ?_)
  match a with
  | ⟨0, _⟩ => show win0_1.index t (0 : Fin 2) * 3 + 1 * k.val = k.val; omega
  | ⟨1, _⟩ => show win0_1.index t (1 : Fin 2) * 64 + 1 * q.val = q.val; omega

theorem emb0_2 (t : Fin cfg0.N) (p : Fin 5000) (q : Fin 64) :
    ((cfg0.win 2).blk t).view.emb (ix2 p q) = ix2 (row0 t p) q := by
  obtain ⟨-, -, -, -, e0, e1⟩ := idx0 t
  refine funext fun a => Fin.ext ?_
  match a with
  | ⟨0, _⟩ => show win0_2.index t (0 : Fin 2) * 5000 + 1 * p.val = 5000 * t.val + p.val; omega
  | ⟨1, _⟩ => show win0_2.index t (1 : Fin 2) * 64 + 1 * q.val = q.val; omega

/-- What point t writes back is block t of the whole product. -/
theorem flushed0 (c : Dev nD) (t : Fin cfg0.N) :
    (dat0 (F := Ideal) V c).flushed 2 t = ((cfg0.win 2).blk t).view.read (Elt Ideal)
      (Cert.Spec.stage0 (V c main_arg0) (V c main_arg3)) := by
  show (cfg0.win 2).cut (grid0.coords t) ((dat0 V c).after 2 t) = _
  rw [after0_2]
  unfold out0_2
  rw [View.canon_unit_zero hz0]
  simp only [View.ld_unit_zero (S := S5000x3) hz0, View.ld_unit_zero (S := S3x64) hz0]
  funext j
  obtain ⟨p, q, rfl⟩ : ∃ (p : Fin 5000) (q : Fin 64), j = ix2 p q := ⟨j 0, j 1, eq_ix2 j⟩
  show k0_pay1 (iblk0 V c 0 t) (iblk0 V c 1 t) (ix2 p q)
    = Cert.Spec.stage0 (V c main_arg0) (V c main_arg3) (((cfg0.win 2).blk t).view.emb (ix2 p q))
  rw [emb0_2 t p q]
  refine (pay0_apply (iblk0 V c 0 t) (iblk0 V c 1 t) p q).trans ?_
  refine Eq.trans ?_ (stage0_apply (V c main_arg0) (V c main_arg3) (row0 t p) q).symm
  refine Finset.sum_congr rfl fun k _ => ?_
  rw [read0_0 V c t p k, read0_1 V c t k q]

theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  let t : Fin cfg0.N := ⟨(i 0).val / 5000, by omega⟩
  obtain ⟨-, -, -, -, e0, e1⟩ := idx0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE REGION'S VALUE: after the region its output array is the whole product of the arrays it entered with. -/
theorem value0 (c : Dev nD) :
    (dat0 (F := Ideal) V c).arrAt 2 cfg0.N = Cert.Spec.stage0 (V c main_arg0) (V c main_arg3) :=
  (dat0 (F := Ideal) V c).arrAt_eq_of_cover 2 _ (fun t _ => flushed0 V c t) (cover0)

end Cert.KernelIdeal.Regions

end
-- ==== Proof.WalkA.lean ====
/-
  The buffers' contents at the first two boundaries of the kernel's run, in closed form. After the first stretch of host
  operations the two index lists and the edge weights are `src`, `dst` and `norm` of the edge argument and every argument is as
  launched; region 0 then leaves the first layer's product in its output array and touches nothing else that is read later.
-/
import proofs.«108873_j65489661330093_1_alg».proof.Proof.Gen.KernelIdeal.Frame
import proofs.«108873_j65489661330093_1_alg».proof.Proof.Spec
import proofs.«108873_j65489661330093_1_alg».proof.Proof.Region0

set_option maxRecDepth 16384

noncomputable section

namespace Cert.KernelIdeal.Walk

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

theorem e1_v3 : W1 m ρ c (Proc.devRef .tc main_v3) = Cert.Spec.src (m ((c : Thread nD τ).loc main_arg1)) := by
  dsimp only [W1, hostOps0]
  after_results_simp <;> rfl

theorem e1_v6 : W1 m ρ c (Proc.devRef .tc main_v6) = Cert.Spec.dst (m ((c : Thread nD τ).loc main_arg1)) := by
  dsimp only [W1, hostOps0]
  after_results_simp <;> rfl

theorem e1_v26 : W1 m ρ c (Proc.devRef .tc main_v26) = Cert.Spec.norm (m ((c : Thread nD τ).loc main_arg1)) := by
  dsimp only [W1, hostOps0]
  after_results_simp <;> rfl

theorem e1_arg0 : W1 m ρ c (Proc.devRef .tc main_arg0) = (m ((c : Thread nD τ).loc main_arg0)) := by
  dsimp only [W1, hostOps0]
  after_results_simp <;> rfl

theorem e1_arg2 : W1 m ρ c (Proc.devRef .tc main_arg2) = (m ((c : Thread nD τ).loc main_arg2)) := by
  dsimp only [W1, hostOps0]
  after_results_simp <;> rfl

theorem e1_arg3 : W1 m ρ c (Proc.devRef .tc main_arg3) = (m ((c : Thread nD τ).loc main_arg3)) := by
  dsimp only [W1, hostOps0]
  after_results_simp <;> rfl

theorem e1_arg4 : W1 m ρ c (Proc.devRef .tc main_arg4) = (m ((c : Thread nD τ).loc main_arg4)) := by
  dsimp only [W1, hostOps0]
  after_results_simp <;> rfl

theorem e1_arg5 : W1 m ρ c (Proc.devRef .tc main_arg5) = (m ((c : Thread nD τ).loc main_arg5)) := by
  dsimp only [W1, hostOps0]
  after_results_simp <;> rfl

theorem e1_arg6 : W1 m ρ c (Proc.devRef .tc main_arg6) = (m ((c : Thread nD τ).loc main_arg6)) := by
  dsimp only [W1, hostOps0]
  after_results_simp <;> rfl

theorem e1_arg7 : W1 m ρ c (Proc.devRef .tc main_arg7) = (m ((c : Thread nD τ).loc main_arg7)) := by
  dsimp only [W1, hostOps0]
  after_results_simp <;> rfl

theorem e1_arg8 : W1 m ρ c (Proc.devRef .tc main_arg8) = (m ((c : Thread nD τ).loc main_arg8)) := by
  dsimp only [W1, hostOps0]
  after_results_simp <;> rfl

theorem e1_arg9 : W1 m ρ c (Proc.devRef .tc main_arg9) = (m ((c : Thread nD τ).loc main_arg9)) := by
  dsimp only [W1, hostOps0]
  after_results_simp <;> rfl

theorem e1_arg10 : W1 m ρ c (Proc.devRef .tc main_arg10) = (m ((c : Thread nD τ).loc main_arg10)) := by
  dsimp only [W1, hostOps0]
  after_results_simp <;> rfl

theorem e1_arg11 : W1 m ρ c (Proc.devRef .tc main_arg11) = (m ((c : Thread nD τ).loc main_arg11)) := by
  dsimp only [W1, hostOps0]
  after_results_simp <;> rfl

theorem e1_arg12 : W1 m ρ c (Proc.devRef .tc main_arg12) = (m ((c : Thread nD τ).loc main_arg12)) := by
  dsimp only [W1, hostOps0]
  after_results_simp <;> rfl

/-- Region 0's output at its exit: the first layer's product of the launched features and matrix. -/
theorem e2_v27 : W2 m ρ c (Proc.devRef .tc main_v27) = (Cert.Spec.stage0 (m ((c : Thread nD τ).loc main_arg0)) (m ((c : Thread nD τ).loc main_arg3))) :=
  (W2_arr m ρ c 2).trans ((Cert.KernelIdeal.Regions.value0 (V1 m ρ) c).trans
    (congr (congrArg Cert.Spec.stage0 (e1_arg0 m ρ c)) (e1_arg3 m ρ c)))

theorem e2_v3 : W2 m ρ c (Proc.devRef .tc main_v3) = Cert.Spec.src (m ((c : Thread nD τ).loc main_arg1)) :=
  (W2_of_ne m ρ c main_v3 (by decide)).trans (e1_v3 m ρ c)

theorem e2_v6 : W2 m ρ c (Proc.devRef .tc main_v6) = Cert.Spec.dst (m ((c : Thread nD τ).loc main_arg1)) :=
  (W2_of_ne m ρ c main_v6 (by decide)).trans (e1_v6 m ρ c)

theorem e2_v26 : W2 m ρ c (Proc.devRef .tc main_v26) = Cert.Spec.norm (m ((c : Thread nD τ).loc main_arg1)) :=
  (W2_of_ne m ρ c main_v26 (by decide)).trans (e1_v26 m ρ c)

theorem e2_arg2 : W2 m ρ c (Proc.devRef .tc main_arg2) = (m ((c : Thread nD τ).loc main_arg2)) :=
  (W2_of_ne m ρ c main_arg2 (by decide)).trans (e1_arg2 m ρ c)

theorem e2_arg4 : W2 m ρ c (Proc.devRef .tc main_arg4) = (m ((c : Thread nD τ).loc main_arg4)) :=
  (W2_of_ne m ρ c main_arg4 (by decide)).trans (e1_arg4 m ρ c)

theorem e2_arg5 : W2 m ρ c (Proc.devRef .tc main_arg5) = (m ((c : Thread nD τ).loc main_arg5)) :=
  (W2_of_ne m ρ c main_arg5 (by decide)).trans (e1_arg5 m ρ c)

theorem e2_arg6 : W2 m ρ c (Proc.devRef .tc main_arg6) = (m ((c : Thread nD τ).loc main_arg6)) :=
  (W2_of_ne m ρ c main_arg6 (by decide)).trans (e1_arg6 m ρ c)

theorem e2_arg7 : W2 m ρ c (Proc.devRef .tc main_arg7) = (m ((c : Thread nD τ).loc main_arg7)) :=
  (W2_of_ne m ρ c main_arg7 (by decide)).trans (e1_arg7 m ρ c)

theorem e2_arg8 : W2 m ρ c (Proc.devRef .tc main_arg8) = (m ((c : Thread nD τ).loc main_arg8)) :=
  (W2_of_ne m ρ c main_arg8 (by decide)).trans (e1_arg8 m ρ c)

theorem e2_arg9 : W2 m ρ c (Proc.devRef .tc main_arg9) = (m ((c : Thread nD τ).loc main_arg9)) :=
  (W2_of_ne m ρ c main_arg9 (by decide)).trans (e1_arg9 m ρ c)

theorem e2_arg10 : W2 m ρ c (Proc.devRef .tc main_arg10) = (m ((c : Thread nD τ).loc main_arg10)) :=
  (W2_of_ne m ρ c main_arg10 (by decide)).trans (e1_arg10 m ρ c)

theorem e2_arg11 : W2 m ρ c (Proc.devRef .tc main_arg11) = (m ((c : Thread nD τ).loc main_arg11)) :=
  (W2_of_ne m ρ c main_arg11 (by decide)).trans (e1_arg11 m ρ c)

theorem e2_arg12 : W2 m ρ c (Proc.devRef .tc main_arg12) = (m ((c : Thread nD τ).loc main_arg12)) :=
  (W2_of_ne m ρ c main_arg12 (by decide)).trans (e1_arg12 m ρ c)

end Cert.KernelIdeal.Walk

end
-- ==== Proof.WalkB.lean ====
/-
  The buffers' contents at the kernel run's middle boundaries, in closed form. Each stretch of host operations between two
  regions gathers every edge's source row of the previous region's output, scales it by the edge's weight and sums it into the
  edge's target row (`agg`), and reshapes the next bias vector into a row; each region then leaves its dense stage of those
  arrays in its output. The index lists, the edge weights and the arguments read later pass through untouched.
-/
import proofs.«108873_j65489661330093_1_alg».proof.Proof.Gen.KernelIdeal.Frame
import proofs.«108873_j65489661330093_1_alg».proof.Proof.Spec
import proofs.«108873_j65489661330093_1_alg».proof.Proof.LibBiasClip
import proofs.«108873_j65489661330093_1_alg».proof.Proof.Region1
import proofs.«108873_j65489661330093_1_alg».proof.Proof.Region2
import proofs.«108873_j65489661330093_1_alg».proof.Proof.WalkA

set_option maxRecDepth 16384

noncomputable section

namespace Cert.KernelIdeal.Walk

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

theorem h3_v40 : V3 m ρ c main_v40 = (Cert.Spec.agg64 (Cert.Spec.stage0 (m ((c : Thread nD τ).loc main_arg0)) (m ((c : Thread nD τ).loc main_arg3))) (m ((c : Thread nD τ).loc main_arg1))) := by
  dsimp only [V3, W3, hostOps1]
  after_results_simp
  rw [e2_v6 m ρ c, e2_v3 m ρ c, e2_v26 m ρ c, e2_v27 m ρ c]
  rfl

theorem h3_v41 : V3 m ρ c main_v41 = Cert.Spec.row64 (m ((c : Thread nD τ).loc main_arg4)) := by
  dsimp only [V3, W3, hostOps1]
  after_results_simp
  rw [e2_arg4 m ρ c]
  exact Cert.Lib.reshape_row_eq _ _ _

theorem h3_arg5 : V3 m ρ c main_arg5 = (m ((c : Thread nD τ).loc main_arg5)) := by
  dsimp only [V3, W3, hostOps1]
  after_results_simp
  exact e2_arg5 m ρ c

/-- Region 1's output at its exit. -/
theorem e4_v42 : W4 m ρ c (Proc.devRef .tc main_v42) = (Cert.Spec.stage1 (Cert.Spec.agg64 (Cert.Spec.stage0 (m ((c : Thread nD τ).loc main_arg0)) (m ((c : Thread nD τ).loc main_arg3))) (m ((c : Thread nD τ).loc main_arg1))) (Cert.Spec.row64 (m ((c : Thread nD τ).loc main_arg4))) (m ((c : Thread nD τ).loc main_arg5))) :=
  (W4_arr m ρ c 3).trans ((Cert.KernelIdeal.Regions.value1 (V3 m ρ) c).trans
    (congr (congr (congrArg Cert.Spec.stage1 (h3_v40 m ρ c)) (h3_v41 m ρ c)) (h3_arg5 m ρ c)))

theorem e4_v3 : W4 m ρ c (Proc.devRef .tc main_v3) = Cert.Spec.src (m ((c : Thread nD τ).loc main_arg1)) :=
  (W4_of_ne m ρ c main_v3 (by decide)).trans (by
    dsimp only [W3, hostOps1]
    after_results_simp
    exact e2_v3 m ρ c)

theorem e4_v6 : W4 m ρ c (Proc.devRef .tc main_v6) = Cert.Spec.dst (m ((c : Thread nD τ).loc main_arg1)) :=
  (W4_of_ne m ρ c main_v6 (by decide)).trans (by
    dsimp only [W3, hostOps1]
    after_results_simp
    exact e2_v6 m ρ c)

theorem e4_v26 : W4 m ρ c (Proc.devRef .tc main_v26) = Cert.Spec.norm (m ((c : Thread nD τ).loc main_arg1)) :=
  (W4_of_ne m ρ c main_v26 (by decide)).trans (by
    dsimp only [W3, hostOps1]
    after_results_simp
    exact e2_v26 m ρ c)

theorem e4_arg2 : W4 m ρ c (Proc.devRef .tc main_arg2) = (m ((c : Thread nD τ).loc main_arg2)) :=
  (W4_of_ne m ρ c main_arg2 (by decide)).trans (by
    dsimp only [W3, hostOps1]
    after_results_simp
    exact e2_arg2 m ρ c)

theorem e4_arg6 : W4 m ρ c (Proc.devRef .tc main_arg6) = (m ((c : Thread nD τ).loc main_arg6)) :=
  (W4_of_ne m ρ c main_arg6 (by decide)).trans (by
    dsimp only [W3, hostOps1]
    after_results_simp
    exact e2_arg6 m ρ c)

theorem e4_arg7 : W4 m ρ c (Proc.devRef .tc main_arg7) = (m ((c : Thread nD τ).loc main_arg7)) :=
  (W4_of_ne m ρ c main_arg7 (by decide)).trans (by
    dsimp only [W3, hostOps1]
    after_results_simp
    exact e2_arg7 m ρ c)

theorem e4_arg8 : W4 m ρ c (Proc.devRef .tc main_arg8) = (m ((c : Thread nD τ).loc main_arg8)) :=
  (W4_of_ne m ρ c main_arg8 (by decide)).trans (by
    dsimp only [W3, hostOps1]
    after_results_simp
    exact e2_arg8 m ρ c)

theorem e4_arg9 : W4 m ρ c (Proc.devRef .tc main_arg9) = (m ((c : Thread nD τ).loc main_arg9)) :=
  (W4_of_ne m ρ c main_arg9 (by decide)).trans (by
    dsimp only [W3, hostOps1]
    after_results_simp
    exact e2_arg9 m ρ c)

theorem e4_arg10 : W4 m ρ c (Proc.devRef .tc main_arg10) = (m ((c : Thread nD τ).loc main_arg10)) :=
  (W4_of_ne m ρ c main_arg10 (by decide)).trans (by
    dsimp only [W3, hostOps1]
    after_results_simp
    exact e2_arg10 m ρ c)

theorem e4_arg11 : W4 m ρ c (Proc.devRef .tc main_arg11) = (m ((c : Thread nD τ).loc main_arg11)) :=
  (W4_of_ne m ρ c main_arg11 (by decide)).trans (by
    dsimp only [W3, hostOps1]
    after_results_simp
    exact e2_arg11 m ρ c)

theorem e4_arg12 : W4 m ρ c (Proc.devRef .tc main_arg12) = (m ((c : Thread nD τ).loc main_arg12)) :=
  (W4_of_ne m ρ c main_arg12 (by decide)).trans (by
    dsimp only [W3, hostOps1]
    after_results_simp
    exact e2_arg12 m ρ c)

theorem h5_v55 : V5 m ρ c main_v55 = (Cert.Spec.agg128 (Cert.Spec.stage1 (Cert.Spec.agg64 (Cert.Spec.stage0 (m ((c : Thread nD τ).loc main_arg0)) (m ((c : Thread nD τ).loc main_arg3))) (m ((c : Thread nD τ).loc main_arg1))) (Cert.Spec.row64 (m ((c : Thread nD τ).loc main_arg4))) (m ((c : Thread nD τ).loc main_arg5))) (m ((c : Thread nD τ).loc main_arg1))) := by
  dsimp only [V5, W5, hostOps2]
  after_results_simp
  rw [e4_v6 m ρ c, e4_v3 m ρ c, e4_v26 m ρ c, e4_v42 m ρ c]
  rfl

theorem h5_v56 : V5 m ρ c main_v56 = Cert.Spec.row128 (m ((c : Thread nD τ).loc main_arg6)) := by
  dsimp only [V5, W5, hostOps2]
  after_results_simp
  rw [e4_arg6 m ρ c]
  exact Cert.Lib.reshape_row_eq _ _ _

theorem h5_arg7 : V5 m ρ c main_arg7 = (m ((c : Thread nD τ).loc main_arg7)) := by
  dsimp only [V5, W5, hostOps2]
  after_results_simp
  exact e4_arg7 m ρ c

/-- Region 2's output at its exit. -/
theorem e6_v57 : W6 m ρ c (Proc.devRef .tc main_v57) = (Cert.Spec.stage2 (Cert.Spec.agg128 (Cert.Spec.stage1 (Cert.Spec.agg64 (Cert.Spec.stage0 (m ((c : Thread nD τ).loc main_arg0)) (m ((c : Thread nD τ).loc main_arg3))) (m ((c : Thread nD τ).loc main_arg1))) (Cert.Spec.row64 (m ((c : Thread nD τ).loc main_arg4))) (m ((c : Thread nD τ).loc main_arg5))) (m ((c : Thread nD τ).loc main_arg1))) (Cert.Spec.row128 (m ((c : Thread nD τ).loc main_arg6))) (m ((c : Thread nD τ).loc main_arg7))) :=
  (W6_arr m ρ c 3).trans ((Cert.KernelIdeal.Regions.value2 (V5 m ρ) c).trans
    (congr (congr (congrArg Cert.Spec.stage2 (h5_v55 m ρ c)) (h5_v56 m ρ c)) (h5_arg7 m ρ c)))

theorem e6_v3 : W6 m ρ c (Proc.devRef .tc main_v3) = Cert.Spec.src (m ((c : Thread nD τ).loc main_arg1)) :=
  (W6_of_ne m ρ c main_v3 (by decide)).trans (by
    dsimp only [W5, hostOps2]
    after_results_simp
    exact e4_v3 m ρ c)

theorem e6_v6 : W6 m ρ c (Proc.devRef .tc main_v6) = Cert.Spec.dst (m ((c : Thread nD τ).loc main_arg1)) :=
  (W6_of_ne m ρ c main_v6 (by decide)).trans (by
    dsimp only [W5, hostOps2]
    after_results_simp
    exact e4_v6 m ρ c)

theorem e6_v26 : W6 m ρ c (Proc.devRef .tc main_v26) = Cert.Spec.norm (m ((c : Thread nD τ).loc main_arg1)) :=
  (W6_of_ne m ρ c main_v26 (by decide)).trans (by
    dsimp only [W5, hostOps2]
    after_results_simp
    exact e4_v26 m ρ c)

theorem e6_arg2 : W6 m ρ c (Proc.devRef .tc main_arg2) = (m ((c : Thread nD τ).loc main_arg2)) :=
  (W6_of_ne m ρ c main_arg2 (by decide)).trans (by
    dsimp only [W5, hostOps2]
    after_results_simp
    exact e4_arg2 m ρ c)

theorem e6_arg8 : W6 m ρ c (Proc.devRef .tc main_arg8) = (m ((c : Thread nD τ).loc main_arg8)) :=
  (W6_of_ne m ρ c main_arg8 (by decide)).trans (by
    dsimp only [W5, hostOps2]
    after_results_simp
    exact e4_arg8 m ρ c)

theorem e6_arg9 : W6 m ρ c (Proc.devRef .tc main_arg9) = (m ((c : Thread nD τ).loc main_arg9)) :=
  (W6_of_ne m ρ c main_arg9 (by decide)).trans (by
    dsimp only [W5, hostOps2]
    after_results_simp
    exact e4_arg9 m ρ c)

theorem e6_arg10 : W6 m ρ c (Proc.devRef .tc main_arg10) = (m ((c : Thread nD τ).loc main_arg10)) :=
  (W6_of_ne m ρ c main_arg10 (by decide)).trans (by
    dsimp only [W5, hostOps2]
    after_results_simp
    exact e4_arg10 m ρ c)

theorem e6_arg11 : W6 m ρ c (Proc.devRef .tc main_arg11) = (m ((c : Thread nD τ).loc main_arg11)) :=
  (W6_of_ne m ρ c main_arg11 (by decide)).trans (by
    dsimp only [W5, hostOps2]
    after_results_simp
    exact e4_arg11 m ρ c)

theorem e6_arg12 : W6 m ρ c (Proc.devRef .tc main_arg12) = (m ((c : Thread nD τ).loc main_arg12)) :=
  (W6_of_ne m ρ c main_arg12 (by decide)).trans (by
    dsimp only [W5, hostOps2]
    after_results_simp
    exact e4_arg12 m ρ c)

end Cert.KernelIdeal.Walk

end
-- ==== Proof.WalkC.lean ====
/-
  The buffers' contents at the kernel run's last boundaries, and the result. After the third aggregation region 3 adds the bias
  row and clips; the last stretch of host operations takes the mean row of each graph (`pool`) and reshapes the head's two bias
  vectors into rows; region 4 applies the head. Composed, the result buffer holds the network `G` of the launched arguments.
-/
import proofs.«108873_j65489661330093_1_alg».proof.Proof.Gen.KernelIdeal.Frame
import proofs.«108873_j65489661330093_1_alg».proof.Proof.Spec
import proofs.«108873_j65489661330093_1_alg».proof.Proof.LibBiasClip
import proofs.«108873_j65489661330093_1_alg».proof.Proof.Region3
import proofs.«108873_j65489661330093_1_alg».proof.Proof.Region4
import proofs.«108873_j65489661330093_1_alg».proof.Proof.WalkB

set_option maxRecDepth 16384

noncomputable section

namespace Cert.KernelIdeal.Walk

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

theorem h7_v70 : V7 m ρ c main_v70 = (Cert.Spec.agg128 (Cert.Spec.stage2 (Cert.Spec.agg128 (Cert.Spec.stage1 (Cert.Spec.agg64 (Cert.Spec.stage0 (m ((c : Thread nD τ).loc main_arg0)) (m ((c : Thread nD τ).loc main_arg3))) (m ((c : Thread nD τ).loc main_arg1))) (Cert.Spec.row64 (m ((c : Thread nD τ).loc main_arg4))) (m ((c : Thread nD τ).loc main_arg5))) (m ((c : Thread nD τ).loc main_arg1))) (Cert.Spec.row128 (m ((c : Thread nD τ).loc main_arg6))) (m ((c : Thread nD τ).loc main_arg7))) (m ((c : Thread nD τ).loc main_arg1))) := by
  dsimp only [V7, W7, hostOps3]
  after_results_simp
  rw [e6_v6 m ρ c, e6_v3 m ρ c, e6_v26 m ρ c, e6_v57 m ρ c]
  rfl

theorem h7_v71 : V7 m ρ c main_v71 = Cert.Spec.row128 (m ((c : Thread nD τ).loc main_arg8)) := by
  dsimp only [V7, W7, hostOps3]
  after_results_simp
  rw [e6_arg8 m ρ c]
  exact Cert.Lib.reshape_row_eq _ _ _

/-- Region 3's output at its exit. -/
theorem e8_v72 : W8 m ρ c (Proc.devRef .tc main_v72) = (Cert.Spec.stage3 (Cert.Spec.agg128 (Cert.Spec.stage2 (Cert.Spec.agg128 (Cert.Spec.stage1 (Cert.Spec.agg64 (Cert.Spec.stage0 (m ((c : Thread nD τ).loc main_arg0)) (m ((c : Thread nD τ).loc main_arg3))) (m ((c : Thread nD τ).loc main_arg1))) (Cert.Spec.row64 (m ((c : Thread nD τ).loc main_arg4))) (m ((c : Thread nD τ).loc main_arg5))) (m ((c : Thread nD τ).loc main_arg1))) (Cert.Spec.row128 (m ((c : Thread nD τ).loc main_arg6))) (m ((c : Thread nD τ).loc main_arg7))) (m ((c : Thread nD τ).loc main_arg1))) (Cert.Spec.row128 (m ((c : Thread nD τ).loc main_arg8)))) :=
  (W8_arr m ρ c 2).trans ((Cert.KernelIdeal.Regions.value3 (V7 m ρ) c).trans
    (congr (congrArg Cert.Spec.stage3 (h7_v70 m ρ c)) (h7_v71 m ρ c)))

theorem e8_arg2 : W8 m ρ c (Proc.devRef .tc main_arg2) = (m ((c : Thread nD τ).loc main_arg2)) :=
  (W8_of_ne m ρ c main_arg2 (by decide)).trans (by
    dsimp only [W7, hostOps3]
    after_results_simp
    exact e6_arg2 m ρ c)

theorem e8_arg9 : W8 m ρ c (Proc.devRef .tc main_arg9) = (m ((c : Thread nD τ).loc main_arg9)) :=
  (W8_of_ne m ρ c main_arg9 (by decide)).trans (by
    dsimp only [W7, hostOps3]
    after_results_simp
    exact e6_arg9 m ρ c)

theorem e8_arg10 : W8 m ρ c (Proc.devRef .tc main_arg10) = (m ((c : Thread nD τ).loc main_arg10)) :=
  (W8_of_ne m ρ c main_arg10 (by decide)).trans (by
    dsimp only [W7, hostOps3]
    after_results_simp
    exact e6_arg10 m ρ c)

theorem e8_arg11 : W8 m ρ c (Proc.devRef .tc main_arg11) = (m ((c : Thread nD τ).loc main_arg11)) :=
  (W8_of_ne m ρ c main_arg11 (by decide)).trans (by
    dsimp only [W7, hostOps3]
    after_results_simp
    exact e6_arg11 m ρ c)

theorem e8_arg12 : W8 m ρ c (Proc.devRef .tc main_arg12) = (m ((c : Thread nD τ).loc main_arg12)) :=
  (W8_of_ne m ρ c main_arg12 (by decide)).trans (by
    dsimp only [W7, hostOps3]
    after_results_simp
    exact e6_arg12 m ρ c)

theorem h9_v84 : V9 m ρ c main_v84 = (Cert.Spec.pool (Cert.Spec.stage3 (Cert.Spec.agg128 (Cert.Spec.stage2 (Cert.Spec.agg128 (Cert.Spec.stage1 (Cert.Spec.agg64 (Cert.Spec.stage0 (m ((c : Thread nD τ).loc main_arg0)) (m ((c : Thread nD τ).loc main_arg3))) (m ((c : Thread nD τ).loc main_arg1))) (Cert.Spec.row64 (m ((c : Thread nD τ).loc main_arg4))) (m ((c : Thread nD τ).loc main_arg5))) (m ((c : Thread nD τ).loc main_arg1))) (Cert.Spec.row128 (m ((c : Thread nD τ).loc main_arg6))) (m ((c : Thread nD τ).loc main_arg7))) (m ((c : Thread nD τ).loc main_arg1))) (Cert.Spec.row128 (m ((c : Thread nD τ).loc main_arg8)))) (m ((c : Thread nD τ).loc main_arg2))) := by
  dsimp only [V9, W9, hostOps4]
  after_results_simp
  rw [e8_v72 m ρ c, e8_arg2 m ρ c]
  rfl

theorem h9_arg9 : V9 m ρ c main_arg9 = (m ((c : Thread nD τ).loc main_arg9)) := by
  dsimp only [V9, W9, hostOps4]
  after_results_simp
  exact e8_arg9 m ρ c

theorem h9_v85 : V9 m ρ c main_v85 = Cert.Spec.row64 (m ((c : Thread nD τ).loc main_arg10)) := by
  dsimp only [V9, W9, hostOps4]
  after_results_simp
  rw [e8_arg10 m ρ c]
  exact Cert.Lib.reshape_row_eq _ _ _

theorem h9_arg11 : V9 m ρ c main_arg11 = (m ((c : Thread nD τ).loc main_arg11)) := by
  dsimp only [V9, W9, hostOps4]
  after_results_simp
  exact e8_arg11 m ρ c

theorem h9_v86 : V9 m ρ c main_v86 = Cert.Spec.row10 (m ((c : Thread nD τ).loc main_arg12)) := by
  dsimp only [V9, W9, hostOps4]
  after_results_simp
  rw [e8_arg12 m ρ c]
  exact Cert.Lib.reshape_row_eq _ _ _

/-- THE KERNEL'S VALUE: at the run's last boundary the result buffer holds the network of the launched arguments. -/
theorem result : W10 m ρ c (Proc.devRef .tc main_v87) = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W10_arr m ρ c 5).trans ((Cert.KernelIdeal.Regions.value4 (V9 m ρ) c).trans
    (congr (congr (congr (congr (congrArg Cert.Spec.stage4 (h9_v84 m ρ c)) (h9_arg9 m ρ c)) (h9_v85 m ρ c)) (h9_arg11 m ρ c)) (h9_v86 m ρ c)))

end Cert.KernelIdeal.Walk

end
-- ==== Proof.lean ====
/-
  The kernel — a three-layer graph convolution, a mean pool over 64 graphs and a two-layer head, its dense stages run as five
  tiled regions between host gathers and accumulations — computes, over the extended reals, the same function `Cert.Spec.G`
  of the thirteen arguments as the reference, entry by entry.

  The kernel's side: the run keeps the result buffer at the fold of the host stretches and the regions' write-backs
  (Proof/KernelRun.lean); each region's output array is its dense stage of the whole arrays it entered with, because every tile's
  entry is the same sum as the whole stage's entry in the tile's row and the tiles cover the array (Proof/Region0 … Region4.lean);
  walking the boundaries from the launch, every host stretch is spelt exactly as the reference spells it, a bias vector reshaped
  to a row being the same row as the vector broadcast onto axis 1 (Proof/WalkA … WalkC.lean). The reference's side: its
  result term is `G` by unfolding (Proof/Spec.lean). No entry of either side is rearranged, so finiteness of the inputs is
  not used. The idealization changed no operation, so there is nothing to preserve; the three frames are the generated ones,
  the reference's being its run with the result dropped.
-/
import proofs.«108873_j65489661330093_1_alg».proof.Defs
import proofs.«108873_j65489661330093_1_alg».proof.Proof.Gen.Kernel
import proofs.«108873_j65489661330093_1_alg».proof.Proof.Gen.Kernel.Frame
import proofs.«108873_j65489661330093_1_alg».proof.Proof.Gen.KernelIdeal
import proofs.«108873_j65489661330093_1_alg».proof.Proof.Gen.KernelIdeal.Frame
import proofs.«108873_j65489661330093_1_alg».proof.Proof.Gen.ReferenceIdeal
import proofs.«108873_j65489661330093_1_alg».proof.Proof.Gen.ReferenceIdeal.Run
import proofs.«108873_j65489661330093_1_alg».proof.Proof.Gen.Pre_finite_inputs
import proofs.«108873_j65489661330093_1_alg».proof.Proof.KernelRun
import proofs.«108873_j65489661330093_1_alg».proof.Proof.Spec
import proofs.«108873_j65489661330093_1_alg».proof.Proof.WalkC
import Idealize.ShloMosaic.Adequacy
import Idealize.ShloMosaic.Init

set_option maxRecDepth 16384

noncomputable section

namespace Cert.Proof

open Idealize.ShloMosaic Idealize.SL.Sem

/-- The idealized kernel's run with its result read: the network of the launched arguments. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v87)
          = Cert.Spec.G (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
              (m ((c.tc : Thread Cert.KernelIdeal.nD Cert.KernelIdeal.τ).loc Cert.KernelIdeal.main_arg9))
              (m ((c.tc : Thread Cert.KernelIdeal.nD Cert.KernelIdeal.τ).loc Cert.KernelIdeal.main_arg10))
              (m ((c.tc : Thread Cert.KernelIdeal.nD Cert.KernelIdeal.τ).loc Cert.KernelIdeal.main_arg11))
              (m ((c.tc : Thread Cert.KernelIdeal.nD Cert.KernelIdeal.τ).loc Cert.KernelIdeal.main_arg12))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run (Cert.KernelIdeal.defs (F := Ideal)) _ _).mono
    (fun r h c => ⟨(h c).1.trans (Cert.KernelIdeal.Walk.result m ρ c), (h c).2⟩)
    (Cert.KernelIdeal.RunValue.run (F := Ideal) m ρ)

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the result dropped
    exact fun m ρ _ => (θ_run Cert.ReferenceIdeal.defs _ _).mono (fun _ h c => (h c).2) (Cert.ReferenceIdeal.Value.run (F := Ideal) m ρ)
  · -- both runs end at the network of the arguments, which agree
    intro m ρ m' ρ' _ hagree
    refine ⟨_, kernel_value m ρ, ?_⟩
    refine (θ_run Cert.ReferenceIdeal.defs _ _).mono (fun _ h c => ⟨(h c).1.trans ?_, (h c).2⟩)
      (Cert.ReferenceIdeal.Value.run (F := Ideal) m' ρ')
    obtain ⟨g0, g1, g2, g3, g4, g5, g6, g7, g8, g9, g10, g11, g12⟩ := hagree c
    rw [Cert.Spec.ref_eq m' c, g0, g1, g2, g3, g4, g5, g6, g7, g8, g9, g10, g11, g12]⟩

end Cert.Proof

end
